-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S1024x64x16 : Shape := ⟨3, ![1024, 64, 16]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x64x16 : S_.BroadcastsInDim S1024x64x16 (![] : Fin 0 → Fin S1024x64x16.rank)
  reducesTo_S1024x64x16_S_d0_1_2 : S1024x64x16.ReducesTo [0, 1, 2] S_

variable [Facts]

def fn {F : FTy → Type} [FloatOps F] (main_arg0 : FVec F S512x1024 .f32) (main_arg1 : FVec F S1024x64x16 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x64x16 .f32 := Host.absf main_arg1
  let main_cst_0 : FVec F S_ .f32 := constant S_ .f32 0x7F800000#32
  let main_v5 : FVec F S1024x64x16 .f32 := broadcastInDim S1024x64x16 ![] bcast_S_S1024x64x16 main_cst_0
  let main_v6 : IVec S1024x64x16 1 := cmpf .olt main_v4 main_v5
  let main_c_1 : IVec S_ 1 := constantI S_ 1 1#1
  let main_v7 : IVec S_ 1 := (fun x v => Host.reduce IntOp.andi x v reducesTo_S1024x64x16_S_d0_1_2 h_S_) main_v6 main_c_1
  let main_v8 : IVec S_ 1 := andi main_v3 main_v7
  main_v8
-- ==== Kernel.lean ====
abbrev S512x1024 : Shape := ⟨2, ![512, 1024]⟩
abbrev S1024x64x16 : Shape := ⟨3, ![1024, 64, 16]⟩
abbrev S1024x1024 : Shape := ⟨2, ![1024, 1024]⟩
abbrev S128x1024 : Shape := ⟨2, ![128, 1024]⟩
abbrev S512x64x16 : Shape := ⟨3, ![512, 64, 16]⟩
abbrev S64x16x512 : Shape := ⟨3, ![64, 16, 512]⟩
abbrev S512x1088 : Shape := ⟨2, ![512, 1088]⟩
abbrev S128x64x16 : Shape := ⟨3, ![128, 64, 16]⟩
abbrev S64x16x128 : Shape := ⟨3, ![64, 16, 128]⟩
abbrev S128x1088 : Shape := ⟨2, ![128, 1088]⟩
abbrev S128x64 : Shape := ⟨2, ![128, 64]⟩
abbrev S128x8x16 : Shape := ⟨3, ![128, 8, 16]⟩
abbrev S8x16x128 : Shape := ⟨3, ![8, 16, 128]⟩
abbrev S128x8x16x1 : Shape := ⟨4, ![128, 8, 16, 1]⟩
abbrev S1x8x16x128 : Shape := ⟨4, ![1, 8, 16, 128]⟩
abbrev S128x8x16x128 : Shape := ⟨4, ![128, 8, 16, 128]⟩
abbrev S128x8x128 : Shape := ⟨3, ![128, 8, 128]⟩
abbrev S128x8 : Shape := ⟨2, ![128, 8]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S1024x64x16, .f32⟩
  | .hbm, ⟨2, _⟩ => ⟨S1024x1024, .f32⟩
  | .hbm, ⟨3, _⟩ => ⟨S512x1024, .f32⟩
  | .hbm, ⟨4, _⟩ => ⟨S512x64x16, .f32⟩
  | .hbm, ⟨5, _⟩ => ⟨S64x16x512, .f32⟩
  | .hbm, ⟨6, _⟩ => ⟨S512x1088, .f32⟩
  | .local _ .vmem, ⟨0, _⟩ => ⟨S128x1024, .f32⟩
  | .local _ .vmem, ⟨1, _⟩ => ⟨S128x1024, .f32⟩
  | .local _ .vmem, ⟨2, _⟩ => ⟨S1024x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x64x16, .f32⟩
  | .local _ .vmem, ⟨8, _⟩ => ⟨S128x64x16, .f32⟩
  | .local _ .vmem, ⟨9, _⟩ => ⟨S64x16x128, .f32⟩
  | .local _ .vmem, ⟨10, _⟩ => ⟨S64x16x128, .f32⟩
  | .local _ .vmem, ⟨11, _⟩ => ⟨S128x1088, .f32⟩
  | .local _ .vmem, ⟨12, _⟩ => ⟨S128x1088, .f32⟩
  | .local _ .vmem, ⟨13, _⟩ => ⟨S128x64, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v163 : BitVec 1 := Scalar.cmpi .eq arg1 c3_i32
  let v164 : BitVec 32 := Scalar.extui v163
  let c0_i32_96 : BitVec 32 := 0#32
  let v165 : BitVec 1 := Scalar.cmpi .ne v164 c0_i32_96
  v165

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x64x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S64x16x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S128x1088 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S1024x64x16_S1024x1024 : S1024x64x16.ShapeCasts S1024x1024
  inb_S128x1024_S128x1024_0_0 : ∀ a, (![0, 0] : Fin 2 → Nat) a + S128x1024.size a ≤ S128x1024.size a
  h_S128x1024 : 0 < S128x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S512x64x16 : S512x1024.ShapeCasts S512x64x16
  transposes_S512x64x16_S64x16x512_1_2_0 : S512x64x16.Transposes [1, 2, 0] S64x16x512
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x64x16_S128x8x16_0_0_0 : ∀ a, (![0, 0, 0] : Fin 3 → Nat) a + S128x8x16.size a ≤ S128x64x16.size a
  h_S128x8x16 : 0 < S128x8x16.numel
  shapeCasts_S128x8x16_S128x8x16 : S128x8x16.ShapeCasts S128x8x16
  inb_S64x16x128_S8x16x128_0_0_0 : ∀ a, (![0, 0, 0] : Fin 3 → Nat) a + S8x16x128.size a ≤ S64x16x128.size a
  h_S8x16x128 : 0 < S8x16x128.numel
  shapeCasts_S8x16x128_S8x16x128 : S8x16x128.ShapeCasts S8x16x128
  shapeCasts_S128x8x16_S128x8x16x1 : S128x8x16.ShapeCasts S128x8x16x1
  shapeCasts_S8x16x128_S1x8x16x128 : S8x16x128.ShapeCasts S1x8x16x128
  broadcasts_S128x8x16x1_S128x8x16x128 : S128x8x16x1.Broadcasts S128x8x16x128
  broadcasts_S1x8x16x128_S128x8x16x128 : S1x8x16x128.Broadcasts S128x8x16x128
  reduces_S128x8x16x128_S128x8x128 : S128x8x16x128.Reduces [2] S128x8x128
  inb_S128x64_S128x8_0_0 : ∀ a, (![0, 0] : Fin 2 → Nat) a + S128x8.size a ≤ S128x64.size a
  h_S128x8 : 0 < S128x8.numel
  reduces_S128x8x128_S128x8 : S128x8x128.Reduces [2] S128x8
  shapeCasts_S128x8_S128x8 : S128x8.ShapeCasts S128x8
  inb_S128x64x16_S128x8x16_0_8_0 : ∀ a, (![0, 8, 0] : Fin 3 → Nat) a + S128x8x16.size a ≤ S128x64x16.size a
  inb_S64x16x128_S8x16x128_8_0_0 : ∀ a, (![8, 0, 0] : Fin 3 → Nat) a + S8x16x128.size a ≤ S64x16x128.size a
  inb_S128x64_S128x8_0_8 : ∀ a, (![0, 8] : Fin 2 → Nat) a + S128x8.size a ≤ S128x64.size a
  inb_S128x64x16_S128x8x16_0_16_0 : ∀ a, (![0, 16, 0] : Fin 3 → Nat) a + S128x8x16.size a ≤ S128x64x16.size a
  inb_S64x16x128_S8x16x128_16_0_0 : ∀ a, (![16, 0, 0] : Fin 3 → Nat) a + S8x16x128.size a ≤ S64x16x128.size a
  inb_S128x64_S128x8_0_16 : ∀ a, (![0, 16] : Fin 2 → Nat) a + S128x8.size a ≤ S128x64.size a
  inb_S128x64x16_S128x8x16_0_24_0 : ∀ a, (![0, 24, 0] : Fin 3 → Nat) a + S128x8x16.size a ≤ S128x64x16.size a
  inb_S64x16x128_S8x16x128_24_0_0 : ∀ a, (![24, 0, 0] : Fin 3 → Nat) a + S8x16x128.size a ≤ S64x16x128.size a
  inb_S128x64_S128x8_0_24 : ∀ a, (![0, 24] : Fin 2 → Nat) a + S128x8.size a ≤ S128x64.size a
  inb_S128x64x16_S128x8x16_0_32_0 : ∀ a, (![0, 32, 0] : Fin 3 → Nat) a + S128x8x16.size a ≤ S128x64x16.size a
  inb_S64x16x128_S8x16x128_32_0_0 : ∀ a, (![32, 0, 0] : Fin 3 → Nat) a + S8x16x128.size a ≤ S64x16x128.size a
  inb_S128x64_S128x8_0_32 : ∀ a, (![0, 32] : Fin 2 → Nat) a + S128x8.size a ≤ S128x64.size a
  inb_S128x64x16_S128x8x16_0_40_0 : ∀ a, (![0, 40, 0] : Fin 3 → Nat) a + S128x8x16.size a ≤ S128x64x16.size a
  inb_S64x16x128_S8x16x128_40_0_0 : ∀ a, (![40, 0, 0] : Fin 3 → Nat) a + S8x16x128.size a ≤ S64x16x128.size a
  inb_S128x64_S128x8_0_40 : ∀ a, (![0, 40] : Fin 2 → Nat) a + S128x8.size a ≤ S128x64.size a
  inb_S128x64x16_S128x8x16_0_48_0 : ∀ a, (![0, 48, 0] : Fin 3 → Nat) a + S128x8x16.size a ≤ S128x64x16.size a
  inb_S64x16x128_S8x16x128_48_0_0 : ∀ a, (![48, 0, 0] : Fin 3 → Nat) a + S8x16x128.size a ≤ S64x16x128.size a
  inb_S128x64_S128x8_0_48 : ∀ a, (![0, 48] : Fin 2 → Nat) a + S128x8.size a ≤ S128x64.size a
  inb_S128x64x16_S128x8x16_0_56_0 : ∀ a, (![0, 56, 0] : Fin 3 → Nat) a + S128x8x16.size a ≤ S128x64x16.size a
  inb_S64x16x128_S8x16x128_56_0_0 : ∀ a, (![56, 0, 0] : Fin 3 → Nat) a + S8x16x128.size a ≤ S64x16x128.size a
  inb_S128x64_S128x8_0_56 : ∀ a, (![0, 56] : Fin 2 → Nat) a + S128x8.size a ≤ S128x64.size a
  inb_S128x1088_S128x1024_0_0 : ∀ a, (![0, 0] : Fin 2 → Nat) a + S128x1024.size a ≤ S128x1088.size a
  inb_S128x1088_S128x64_0_1024 : ∀ a, (![0, 1024] : Fin 2 → Nat) a + S128x64.size a ≤ S128x1088.size a
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S512x1024.size a
  hwx0_0 : ∀ i : grid0.Coords, EltTy.bits .f32 = 32 ∨ (Rect.block (s := S512x1024) S128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S512x1024.size a
  hwx0_2 : ∀ i : grid0.Coords, EltTy.bits .f32 = 32 ∨ (Rect.block (s := S512x1024) S128x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S512x1024.size a
  hwx1_0 : ∀ i : grid1.Coords, EltTy.bits .f32 = 32 ∨ (Rect.block (s := S512x1024) S128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x64x16.size a ≤ S512x64x16.size a
  hwx1_1 : ∀ i : grid1.Coords, EltTy.bits .f32 = 32 ∨ (Rect.block (s := S512x64x16) S128x64x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x16x128.size a ≤ S64x16x512.size a
  hwx1_2 : ∀ i : grid1.Coords, EltTy.bits .f32 = 32 ∨ (Rect.block (s := S64x16x512) S64x16x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1088.size a ≤ S512x1088.size a
  hwx1_3 : ∀ i : grid1.Coords, EltTy.bits .f32 = 32 ∨ (Rect.block (s := S512x1088) S128x1088.size (cc1_transform_3 i) (hinb1_3 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x64x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S64x16x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S128x1088.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S512x1024 : Shape := ⟨2, ![512, 1024]⟩
abbrev S1024x64x16 : Shape := ⟨3, ![1024, 64, 16]⟩
abbrev S1024x1024 : Shape := ⟨2, ![1024, 1024]⟩
abbrev S512x64x16 : Shape := ⟨3, ![512, 64, 16]⟩
abbrev S1x512x64x16 : Shape := ⟨4, ![1, 512, 64, 16]⟩
abbrev S512x1x64x16 : Shape := ⟨4, ![512, 1, 64, 16]⟩
abbrev S512x512x64x16 : Shape := ⟨4, ![512, 512, 64, 16]⟩
abbrev S_ : Shape := ⟨0, ![]⟩
abbrev S512x512x64 : Shape := ⟨3, ![512, 512, 64]⟩
abbrev S512x64 : Shape := ⟨2, ![512, 64]⟩
abbrev S512x1088 : Shape := ⟨2, ![512, 1088]⟩

abbrev nBuf : Space → Nat
  | .hbm => 21
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x64x16, .f32⟩
  | .hbm, ⟨2, _⟩ => ⟨S1024x1024, .f32⟩
  | .hbm, ⟨3, _⟩ => ⟨S512x1024, .f32⟩
  | .hbm, ⟨4, _⟩ => ⟨S512x64x16, .f32⟩
  | .hbm, ⟨5, _⟩ => ⟨S1x512x64x16, .f32⟩
  | .hbm, ⟨6, _⟩ => ⟨S512x1x64x16, .f32⟩
  | .hbm, ⟨7, _⟩ => ⟨S512x512x64x16, .f32⟩
  | .hbm, ⟨8, _⟩ => ⟨S512x512x64x16, .f32⟩
  | .hbm, ⟨9, _⟩ => ⟨S512x512x64x16, .f32⟩
  | .hbm, ⟨10, _⟩ => ⟨S512x512x64x16, .f32⟩
  | .hbm, ⟨11, _⟩ => ⟨S_, .f32⟩
  | .hbm, ⟨12, _⟩ => ⟨S512x512x64, .f32⟩
  | .hbm, ⟨13, _⟩ => ⟨S512x512x64, .f32⟩
  | .hbm, ⟨14, _⟩ => ⟨S512x512x64, .f32⟩
  | .hbm, ⟨15, _⟩ => ⟨S_, .f32⟩
  | .hbm, ⟨16, _⟩ => ⟨S512x64, .f32⟩
  | .hbm, ⟨17, _⟩ => ⟨S_, .f32⟩
  | .hbm, ⟨18, _⟩ => ⟨S512x64, .f32⟩
  | .hbm, ⟨19, _⟩ => ⟨S512x64, .f32⟩
  | .hbm, ⟨20, _⟩ => ⟨S512x1088, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  shapeCasts_S1024x64x16_S1024x1024 : S1024x64x16.ShapeCasts S1024x1024
  shapeCasts_S512x1024_S512x64x16 : S512x1024.ShapeCasts S512x64x16
  bcast_S512x64x16_S1x512x64x16_1_2_3 : S512x64x16.BroadcastsInDim S1x512x64x16 (![1, 2, 3] : Fin 3 → Fin S1x512x64x16.rank)
  bcast_S512x64x16_S512x1x64x16_0_2_3 : S512x64x16.BroadcastsInDim S512x1x64x16 (![0, 2, 3] : Fin 3 → Fin S512x1x64x16.rank)
  bcast_S1x512x64x16_S512x512x64x16_0_1_2_3 : S1x512x64x16.BroadcastsInDim S512x512x64x16 (![0, 1, 2, 3] : Fin 4 → Fin S512x512x64x16.rank)
  bcast_S512x1x64x16_S512x512x64x16_0_1_2_3 : S512x1x64x16.BroadcastsInDim S512x512x64x16 (![0, 1, 2, 3] : Fin 4 → Fin S512x512x64x16.rank)
  reducesTo_S512x512x64x16_S512x512x64_d3 : S512x512x64x16.ReducesTo [3] S512x512x64
  h_S_ : 0 < S_.numel
  reducesTo_S512x512x64_S512x64_d1 : S512x512x64.ReducesTo [1] S512x64
  bcast_S_S512x64 : S_.BroadcastsInDim S512x64 (![] : Fin 0 → Fin S512x64.rank)
  concatenates_S512x1024_S512x64_S512x1088_d1 : Shape.Concatenates [S512x1024, S512x64] S512x1088 1
  dot_S512x1024_S1024x1024_S512x1024_1_0_0_1_n_n_wf : DotDims.WF S512x1024 S1024x1024 S512x1024 [1] [0] [0] [1] [] []

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

class Facts : Prop extends Facts₀ where

variable [Facts]
-- ==== Proof.KRegion0.lean ====
/-
  The projection call: at each of its four points the kernel multiplies the 128 rows of x that the point holds by the
  whole 1024 × 1024 matrix and stores the product over the point's 128 × 1024 block of the result.

  Everything is stated at a parameter V, the contents of the core's buffers when the call is entered, and for any
  float interpretation F. The two operands reach the body as the blocks of their arrays (the matrix is brought in once,
  at the first point, and is still there at the later ones, its block index never moving); the body reads both, reads
  the result's buffer too without using what it finds, and overwrites that buffer whole with the product, so what it
  leaves there is a function of the two operand blocks alone.
-/
import proofs.«136571_j42279658062013_2_alg».proof.Proof.Gen.Kernel.Launch
import proofs.«136571_j42279658062013_2_alg».proof.Proof.Gen.Kernel.Skeleton
import proofs.«136571_j42279658062013_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the contents of the core's buffers when the call is entered
variable (V : (c : Dev nD) → (b : Ref sig .tc) → Buf (Elt F) ((c : Thread nD τ).loc b))

/-! ## The windows' blocks -/

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of x: brought in at every point, so the buffer holds the point's block. Stated for any proof data whose
    array is V's and whose body leaves the block where it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The matrix: brought in at the first point only. At a later point nothing was fetched, but the block index is the
    same at every point (the index map is constant) and the body left the buffer as it was, so the buffer still holds
    the block — which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 128 × 1024 buffer as a rectangle (x's rows; the result's block). -/
abbrev rX0 : Rect S128x1024 := Rect.unit (s := S128x1024) ![0, 0] S128x1024.size inb_S128x1024_S128x1024_0_0
/-- The whole 1024 × 1024 buffer as a rectangle (the matrix). -/
abbrev rT0 : Rect S1024x1024 := Rect.unit (s := S1024x1024) ![0, 0] S1024x1024.size inb_S1024x1024_S1024x1024_0_0

/-! ## What the body leaves in the result's buffer -/

/-- The result's buffer after the body, from the two operand blocks: one store, of the product, over the whole of it. -/
def out0_2 (x0 : Vec F S128x1024 .f32) (x1 : Vec F S1024x1024 .f32) : Vec F S128x1024 .f32 :=
  View.canon [⟨rX0, k0_pay1 (View.ld x0 rX0) (View.ld x1 rT0)⟩]

/-- The one store covers the buffer. -/
theorem cover0_2 (p0 : Vec F S128x1024 .f32) (y : S128x1024.Idx) :
    ∃ pc ∈ ([⟨rX0, p0⟩] : List (View.Piece (Elt F) S128x1024 .f32)), y ∈ pc.1.set :=
  View.cover_of_tiled [⟨rX0, p0⟩] S128x1024.size (by rfl) y

/-! ## The body's triple -/

set_option maxHeartbeats 1000000 in
/-- The kernel on whole buffers — the operands' reading x0 and x1, the result's holding anything — runs to the
    continuation with the operands' as they were and the result's at out0_2 x0 x1. The body's read of the result's
    buffer binds a value nothing uses. -/
theorem sound_kernel0 (c : Dev nD) (E : Set ℕ) (i : grid0.Coords)
    (arg1 : Memref sig .tc .vmem S128x1024 .f32) (harg1 : arg1.IsWhole)
    (arg2 : Memref sig .tc .vmem S1024x1024 .f32) (harg2 : arg2.IsWhole)
    (arg3 : Memref sig .tc .vmem S128x1024 .f32) (harg3 : arg3.IsWhole)
    (x0 : Vec F S128x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The call's proof data -/

/-- The arrays as the call finds them; after the body at point t each operand's buffer at its block and the result's at
    out0_2 of the two blocks; the invariant the plain one (the scoped rest and the generator register, untouched);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each operand's buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' buffers hold their blocks, so the kernel's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KRegion1Base.lean ====
/-
  The second pallas_call (pairwise distances, pipeline 1, grid [4, 4] with the reduction axis j last): what its
  three control cases share. The body zeroes its accumulator when j = 0 (first conditional), adds one 128-column
  tile's contribution for each of eight feature chunks at every point, and when j = 3 (second conditional) stores
  the x block and the scaled accumulator into the output block; at every other point the output window is idle.
-/
import proofs.«136571_j42279658062013_2_alg».proof.Proof.Gen.Kernel.Launch
import proofs.«136571_j42279658062013_2_alg».proof.Proof.Gen.Kernel.Skeleton
import proofs.«136571_j42279658062013_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions, decided over the grid -/

/-- The first conditional (reset the accumulator): the reduction coordinate j is 0. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional (write the output block): j is 3, the last reduction step. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where j ≠ 3 the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where j = 3 it is live. -/
theorem liveAt1_3 : ∀ t : Fin cfg1.N, cond1_1 (grid1.coords t) → cfg1.idle 3 (grid1.coords t) = false := by decide +kernel

/-! ## The memrefs the body is called with -/

abbrev VO1_3 : View sig .tc .vmem S128x1088 .f32 := (Memref.whole cc1_stg3_0 : Memref sig .tc .vmem S128x1088 .f32).view
abbrev ms1_0 (t : Fin cfg1.N) : Memref sig .tc .vmem S128x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x64x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x16x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x1088 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from one point to the next. -/
abbrev scM1_0 : Memref sig .tc .vmem S128x64 .f32 := Memref.whole cc1_scratch0
abbrev VS1_0 : View sig .tc .vmem S128x64 .f32 := scM1_0.view

/-- The region's plain invariant with the accumulator spelled as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.KRegion1RunA.lean ====
/-
  The whole body of the pairwise kernel at a point with j = 0: the accumulator is reset, then the eight chunk
  contributions are added; the output block is left as found. The stores into the accumulator are found by the run.
-/
import proofs.«136571_j42279658062013_2_alg».proof.Proof.KRegion1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S128x1024 .f32) (harg2 : arg2.IsWhole) (arg3 : Memref sig .tc .vmem S128x64x16 .f32) (harg3 : arg3.IsWhole) (arg4 : Memref sig .tc .vmem S64x16x128 .f32) (harg4 : arg4.IsWhole) (arg5 : Memref sig .tc .vmem S128x1088 .f32) (harg5 : arg5.IsWhole) (arg6 : Memref sig .tc .vmem S128x64 .f32) (harg6 : arg6.IsWhole) (hc0 : cond1_0 i) (hc1 : ¬cond1_1 i)
    (x0 : Vec F S128x1024 .f32) (x1 : Vec F S128x64x16 .f32) (x2 : Vec F S64x16x128 .f32) :
    { LS0 : List (View.Piece (Elt F) S128x64 .f32) //
      ∀ (xi3 : Vec F S128x1088 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, fun xi3 E K => ?run⟩
  case run =>
    simp only [cc1_kernel_eq_skeleton, k1_part1_eq_skeleton, k1_part2_eq_skeleton, k1_part3_eq_skeleton, k1_part4_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KRegion1RunB.lean ====
/-
  The whole body of the pairwise kernel at a point with 0 < j < 3: the eight chunk contributions are added to the
  accumulator the point before left; the output block is left as found.
-/
import proofs.«136571_j42279658062013_2_alg».proof.Proof.KRegion1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S128x1024 .f32) (harg2 : arg2.IsWhole) (arg3 : Memref sig .tc .vmem S128x64x16 .f32) (harg3 : arg3.IsWhole) (arg4 : Memref sig .tc .vmem S64x16x128 .f32) (harg4 : arg4.IsWhole) (arg5 : Memref sig .tc .vmem S128x1088 .f32) (harg5 : arg5.IsWhole) (arg6 : Memref sig .tc .vmem S128x64 .f32) (harg6 : arg6.IsWhole) (hc0 : ¬cond1_0 i) (hc1 : ¬cond1_1 i)
    (x0 : Vec F S128x1024 .f32) (x1 : Vec F S128x64x16 .f32) (x2 : Vec F S64x16x128 .f32) (xs0 : Vec F S128x64 .f32) :
    { LS0 : List (View.Piece (Elt F) S128x64 .f32) //
      ∀ (xi3 : Vec F S128x1088 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, fun xi3 E K => ?run⟩
  case run =>
    simp only [cc1_kernel_eq_skeleton, k1_part1_eq_skeleton, k1_part2_eq_skeleton, k1_part3_eq_skeleton, k1_part4_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KRegion1RunC.lean ====
/-
  The whole body of the pairwise kernel at a point with j = 3: the eight chunk contributions are added to the
  accumulator the point before left, then the x block and the scaled accumulator are stored into the output block.
-/
import proofs.«136571_j42279658062013_2_alg».proof.Proof.KRegion1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S128x1024 .f32) (harg2 : arg2.IsWhole) (arg3 : Memref sig .tc .vmem S128x64x16 .f32) (harg3 : arg3.IsWhole) (arg4 : Memref sig .tc .vmem S64x16x128 .f32) (harg4 : arg4.IsWhole) (arg5 : Memref sig .tc .vmem S128x1088 .f32) (harg5 : arg5.IsWhole) (arg6 : Memref sig .tc .vmem S128x64 .f32) (harg6 : arg6.IsWhole) (hc0 : ¬cond1_0 i) (hc1 : cond1_1 i)
    (x0 : Vec F S128x1024 .f32) (x1 : Vec F S128x64x16 .f32) (x2 : Vec F S64x16x128 .f32) (xs0 : Vec F S128x64 .f32) :
    Σ' (L3 : List (View.Piece (Elt F) S128x1088 .f32)), { LS0 : List (View.Piece (Elt F) S128x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton, k1_part1_eq_skeleton, k1_part2_eq_skeleton, k1_part3_eq_skeleton, k1_part4_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.KRegion1.lean ====
/-
  The second pallas_call, pipeline 1: what its output block and its accumulator hold after each grid point, the
  proof data over that, and the body obligation. The accumulator is carried: after a point with j = 0 it holds that
  tile's sums over a zeroed start, after a later point the sums added to what the point before left; the output block
  is written at j = 3 only and is idle (handed back as found, not written back) at the other points.
-/
import proofs.«136571_j42279658062013_2_alg».proof.Proof.KRegion1RunA
import proofs.«136571_j42279658062013_2_alg».proof.Proof.KRegion1RunB
import proofs.«136571_j42279658062013_2_alg».proof.Proof.KRegion1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Where the output window is idle nothing is stored into it: a placeholder no one consults. -/
def outIdle1_3 : Vec F S128x1088 .f32 := VO1_3.read (Elt F) (VO1_3.writes (Elt F) VO1_3.junk [])

/-- The stores of a point with j = 0 cover the accumulator. -/
theorem scover1_A (c : Dev nD) (i : grid1.Coords) (arg2 : Memref sig .tc .vmem S128x1024 .f32) (harg2 : arg2.IsWhole) (arg3 : Memref sig .tc .vmem S128x64x16 .f32) (harg3 : arg3.IsWhole) (arg4 : Memref sig .tc .vmem S64x16x128 .f32) (harg4 : arg4.IsWhole) (arg5 : Memref sig .tc .vmem S128x1088 .f32) (harg5 : arg5.IsWhole) (arg6 : Memref sig .tc .vmem S128x64 .f32) (harg6 : arg6.IsWhole) (hc0 : cond1_0 i) (hc1 : ¬cond1_1 i)
    (x0 : Vec F S128x1024 .f32) (x1 : Vec F S128x64x16 .f32) (x2 : Vec F S64x16x128 .f32) (y : S128x64.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S128x64.size (by sl_kernel_rfl) y
/-- What such a point leaves in the accumulator. -/
def sout1_A (c : Dev nD) (i : grid1.Coords) (arg2 : Memref sig .tc .vmem S128x1024 .f32) (harg2 : arg2.IsWhole) (arg3 : Memref sig .tc .vmem S128x64x16 .f32) (harg3 : arg3.IsWhole) (arg4 : Memref sig .tc .vmem S64x16x128 .f32) (harg4 : arg4.IsWhole) (arg5 : Memref sig .tc .vmem S128x1088 .f32) (harg5 : arg5.IsWhole) (arg6 : Memref sig .tc .vmem S128x64 .f32) (harg6 : arg6.IsWhole) (hc0 : cond1_0 i) (hc1 : ¬cond1_1 i)
    (x0 : Vec F S128x1024 .f32) (x1 : Vec F S128x64x16 .f32) (x2 : Vec F S64x16x128 .f32) : Vec F S128x64 .f32 :=
  VS1_0.read (Elt F) (VS1_0.writes (Elt F) VS1_0.junk (kernelRun1_A c i arg2 harg2 arg3 harg3 arg4 harg4 arg5 harg5 arg6 harg6 hc0 hc1 x0 x1 x2).1)

/-- The stores of a point with 0 < j < 3 cover the accumulator. -/
theorem scover1_B (c : Dev nD) (i : grid1.Coords) (arg2 : Memref sig .tc .vmem S128x1024 .f32) (harg2 : arg2.IsWhole) (arg3 : Memref sig .tc .vmem S128x64x16 .f32) (harg3 : arg3.IsWhole) (arg4 : Memref sig .tc .vmem S64x16x128 .f32) (harg4 : arg4.IsWhole) (arg5 : Memref sig .tc .vmem S128x1088 .f32) (harg5 : arg5.IsWhole) (arg6 : Memref sig .tc .vmem S128x64 .f32) (harg6 : arg6.IsWhole) (hc0 : ¬cond1_0 i) (hc1 : ¬cond1_1 i)
    (x0 : Vec F S128x1024 .f32) (x1 : Vec F S128x64x16 .f32) (x2 : Vec F S64x16x128 .f32) (xs0 : Vec F S128x64 .f32) (y : S128x64.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S128x8.size (by sl_kernel_rfl) y
def sout1_B (c : Dev nD) (i : grid1.Coords) (arg2 : Memref sig .tc .vmem S128x1024 .f32) (harg2 : arg2.IsWhole) (arg3 : Memref sig .tc .vmem S128x64x16 .f32) (harg3 : arg3.IsWhole) (arg4 : Memref sig .tc .vmem S64x16x128 .f32) (harg4 : arg4.IsWhole) (arg5 : Memref sig .tc .vmem S128x1088 .f32) (harg5 : arg5.IsWhole) (arg6 : Memref sig .tc .vmem S128x64 .f32) (harg6 : arg6.IsWhole) (hc0 : ¬cond1_0 i) (hc1 : ¬cond1_1 i)
    (x0 : Vec F S128x1024 .f32) (x1 : Vec F S128x64x16 .f32) (x2 : Vec F S64x16x128 .f32) (xs0 : Vec F S128x64 .f32) : Vec F S128x64 .f32 :=
  VS1_0.read (Elt F) (VS1_0.writes (Elt F) VS1_0.junk (kernelRun1_B c i arg2 harg2 arg3 harg3 arg4 harg4 arg5 harg5 arg6 harg6 hc0 hc1 x0 x1 x2 xs0).1)

/-- The stores of a point with j = 3 cover the accumulator, and its two output stores tile the output block. -/
theorem scover1_C (c : Dev nD) (i : grid1.Coords) (arg2 : Memref sig .tc .vmem S128x1024 .f32) (harg2 : arg2.IsWhole) (arg3 : Memref sig .tc .vmem S128x64x16 .f32) (harg3 : arg3.IsWhole) (arg4 : Memref sig .tc .vmem S64x16x128 .f32) (harg4 : arg4.IsWhole) (arg5 : Memref sig .tc .vmem S128x1088 .f32) (harg5 : arg5.IsWhole) (arg6 : Memref sig .tc .vmem S128x64 .f32) (harg6 : arg6.IsWhole) (hc0 : ¬cond1_0 i) (hc1 : cond1_1 i)
    (x0 : Vec F S128x1024 .f32) (x1 : Vec F S128x64x16 .f32) (x2 : Vec F S64x16x128 .f32) (xs0 : Vec F S128x64 .f32) (y : S128x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S128x8.size (by sl_kernel_rfl) y
theorem cover1_C (c : Dev nD) (i : grid1.Coords) (arg2 : Memref sig .tc .vmem S128x1024 .f32) (harg2 : arg2.IsWhole) (arg3 : Memref sig .tc .vmem S128x64x16 .f32) (harg3 : arg3.IsWhole) (arg4 : Memref sig .tc .vmem S64x16x128 .f32) (harg4 : arg4.IsWhole) (arg5 : Memref sig .tc .vmem S128x1088 .f32) (harg5 : arg5.IsWhole) (arg6 : Memref sig .tc .vmem S128x64 .f32) (harg6 : arg6.IsWhole) (hc0 : ¬cond1_0 i) (hc1 : cond1_1 i)
    (x0 : Vec F S128x1024 .f32) (x1 : Vec F S128x64x16 .f32) (x2 : Vec F S64x16x128 .f32) (xs0 : Vec F S128x64 .f32) (y : S128x1088.Idx) :
    ∃ pc ∈ (kernelRun1_C c i arg2 harg2 arg3 harg3 arg4 harg4 arg5 harg5 arg6 harg6 hc0 hc1 x0 x1 x2 xs0).1, y ∈ pc.1.set :=
  View.cover_of_tiledBy (kernelRun1_C c i arg2 harg2 arg3 harg3 arg4 harg4 arg5 harg5 arg6 harg6 hc0 hc1 x0 x1 x2 xs0).1 S128x64.size (by sl_kernel_rfl) y
def sout1_C (c : Dev nD) (i : grid1.Coords) (arg2 : Memref sig .tc .vmem S128x1024 .f32) (harg2 : arg2.IsWhole) (arg3 : Memref sig .tc .vmem S128x64x16 .f32) (harg3 : arg3.IsWhole) (arg4 : Memref sig .tc .vmem S64x16x128 .f32) (harg4 : arg4.IsWhole) (arg5 : Memref sig .tc .vmem S128x1088 .f32) (harg5 : arg5.IsWhole) (arg6 : Memref sig .tc .vmem S128x64 .f32) (harg6 : arg6.IsWhole) (hc0 : ¬cond1_0 i) (hc1 : cond1_1 i)
    (x0 : Vec F S128x1024 .f32) (x1 : Vec F S128x64x16 .f32) (x2 : Vec F S64x16x128 .f32) (xs0 : Vec F S128x64 .f32) : Vec F S128x64 .f32 :=
  VS1_0.read (Elt F) (VS1_0.writes (Elt F) VS1_0.junk (kernelRun1_C c i arg2 harg2 arg3 harg3 arg4 harg4 arg5 harg5 arg6 harg6 hc0 hc1 x0 x1 x2 xs0).2.1)
def out1_C (c : Dev nD) (i : grid1.Coords) (arg2 : Memref sig .tc .vmem S128x1024 .f32) (harg2 : arg2.IsWhole) (arg3 : Memref sig .tc .vmem S128x64x16 .f32) (harg3 : arg3.IsWhole) (arg4 : Memref sig .tc .vmem S64x16x128 .f32) (harg4 : arg4.IsWhole) (arg5 : Memref sig .tc .vmem S128x1088 .f32) (harg5 : arg5.IsWhole) (arg6 : Memref sig .tc .vmem S128x64 .f32) (harg6 : arg6.IsWhole) (hc0 : ¬cond1_0 i) (hc1 : cond1_1 i)
    (x0 : Vec F S128x1024 .f32) (x1 : Vec F S128x64x16 .f32) (x2 : Vec F S64x16x128 .f32) (xs0 : Vec F S128x64 .f32) : Vec F S128x1088 .f32 :=
  VO1_3.read (Elt F) (VO1_3.writes (Elt F) VO1_3.junk (kernelRun1_C c i arg2 harg2 arg3 harg3 arg4 harg4 arg5 harg5 arg6 harg6 hc0 hc1 x0 x1 x2 xs0).1)

/-! ## What the output block and the accumulator hold after each point -/

/-- After the body at position `n`: the output block's staging buffer and the accumulator. At j = 0 the accumulator is
    that point's sums over zero; at a later j the sums added to what position `n - 1` left; the output block is written
    at j = 3 from the accumulator the step before left, and is a placeholder elsewhere. -/
def outsAt1 (c : Dev nD) : (n : ℕ) → n < cfg1.N → Vec F S128x1088 .f32 × Vec F S128x64 .f32
  | 0, hn => (outIdle1_3, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      (outIdle1_3, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (outIdle1_3, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (outIdle1_3, sout1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (outIdle1_3, sout1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The scoped buffers that are no staging buffer of this pipeline — the first pallas_call's five staging buffers at
    anything, the accumulator as `S` says — and the generator register at some state. -/
def restWith (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S) ∗ (∃ r, prngReg c r))

theorem PhiA1_eq' (c : Dev nD) : (Pipeline.ΦA spec1 c : sProp 𝕄) = restWith c (iprop(∃ d, owns (c : Thread nD τ) scM1_0 fullShare d)) := by
  rw [PhiA1_eq]; rfl

/-- The invariant before position `n`: before the first point the plain one (the accumulator at anything); afterwards
    the accumulator at what the point before left. -/
def PhiS1 (c : Dev nD) : (n : ℕ) → n ≤ cfg1.N → sProp 𝕄
  | 0, _ => Pipeline.ΦA spec1 c
  | n + 1, hn => restWith c (owns (c : Thread nD τ) scM1_0 fullShare ((outsAt1 V c n hn).2))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = restWith c (owns (c : Thread nD τ) scM1_0 fullShare ((outsAt1 V c n hn).2)) := rfl
theorem PhiS1_pos (c : Dev nD) (n : ℕ) (h : n ≤ cfg1.N) (hz : n ≠ 0) :
    PhiS1 V c n h = restWith c (owns (c : Thread nD τ) scM1_0 fullShare ((outsAt1 V c (n - 1) (by omega)).2)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The input buffers hold their blocks; the value of j selects the case; the invariant hands the
    body the accumulator at what the point before left (at anything before the first point, and a point with j = 0
    overwrites it anyway) and takes it back at this point's contents; an idle output block goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq']; unfold restWith
      · iintro ⟨⟨⟨E0, E1, E2, E3, E4, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [E0 E1 E2 E3 E4 HS0 Hg]
        · isplitr [Hg]
          · isplitl [E0]; · iexact E0
            isplitl [E1]; · iexact E1
            isplitl [E2]; · iexact E2
            isplitl [E3]; · iexact E3
            isplitl [E4]; · iexact E4
            unfold owns; iexists _; isplitr
            swap; · iexact HS0
            ipureintro; exact View.read_writes_of_cover _ _ _ _ _ (scover1_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
    · rw [PhiS1_castSucc V c t, PhiS1_pos V c _ _ hz]; unfold restWith
      · iintro ⟨⟨⟨E0, E1, E2, E3, E4, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [E0 E1 E2 E3 E4 HS0 Hg]
        · isplitr [Hg]
          · isplitl [E0]; · iexact E0
            isplitl [E1]; · iexact E1
            isplitl [E2]; · iexact E2
            isplitl [E3]; · iexact E3
            isplitl [E4]; · iexact E4
            unfold owns; iexists _; isplitr
            swap; · iexact HS0
            ipureintro; exact View.read_writes_of_cover _ _ _ _ _ (scover1_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      have hz : t.val ≠ 0 := by omega
      rw [PhiS1_castSucc V c t, PhiS1_pos V c _ _ hz]; unfold restWith
      · iintro ⟨⟨⟨E0, E1, E2, E3, E4, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [E0 E1 E2 E3 E4 HS0 Hg]
        · isplitr [Hg]
          · isplitl [E0]; · iexact E0
            isplitl [E1]; · iexact E1
            isplitl [E2]; · iexact E2
            isplitl [E3]; · iexact E3
            isplitl [E4]; · iexact E4
            unfold owns; iexists _; isplitr
            swap; · iexact HS0
            ipureintro; exact View.read_writes_of_cover _ _ _ _ _ (scover1_C c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      have hz : t.val ≠ 0 := by omega
      rw [PhiS1_castSucc V c t, PhiS1_pos V c _ _ hz]; unfold restWith
      · iintro ⟨⟨⟨E0, E1, E2, E3, E4, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [E0 E1 E2 E3 E4 HS0 Hg]
        · isplitr [Hg]
          · isplitl [E0]; · iexact E0
            isplitl [E1]; · iexact E1
            isplitl [E2]; · iexact E2
            isplitl [E3]; · iexact E3
            isplitl [E4]; · iexact E4
            unfold owns; iexists _; isplitr
            swap; · iexact HS0
            ipureintro; exact View.read_writes_of_cover _ _ _ _ _ (scover1_B c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the plain one back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq']; unfold restWith
  iintro ⟨⟨E0, E1, E2, E3, E4, HS0⟩, Hg⟩
  isplitr [Hg]
  · isplitl [E0]; · iexact E0
    isplitl [E1]; · iexact E1
    isplitl [E2]; · iexact E2
    isplitl [E3]; · iexact E3
    isplitl [E4]; · iexact E4
    iexists _; iexact HS0
  iexact Hg

theorem hout1 (c : Dev nD) : (dat1 V c).Φ (Fin.last cfg1.N) ⊢ Pipeline.ΦA spec1 c :=
  Phi_out1 V c _ (by rw [Fin.val_last]; have : cfg1.N = 16 := N_1; omega)

end Cert.Kernel.Hand

end
-- ==== Proof.KRun.lean ====
/-
  The whole program's run: @main is a reshape of T, the projection pallas_call, a reshape and a transpose of its
  result, and the pairwise pallas_call. The buffer contents at each boundary are folded from the launch memory; each
  pallas_call is entered from the contents before it and left with its arrays at what its pipeline writes back; the
  run ends with every unscoped buffer at the last boundary's contents, from which the arguments (never written) and
  the result array are read.
-/
import proofs.«136571_j42279658062013_2_alg».proof.Proof.KRegion0
import proofs.«136571_j42279658062013_2_alg».proof.Proof.KRegion1
import proofs.«136571_j42279658062013_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At pallas_call 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At pallas_call 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-- The result array at the end is what the pairwise pipeline wrote back. -/
theorem W4_main_v4 (c : Dev nD) : W4 m ρ c (Proc.devRef .tc main_v4) = (dat1 (V3 m ρ) c).arrAt 3 cfg1.N :=
  W4_arr m ρ c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The pallas_calls as segments -/

set_option backward.isDefEq.respectTransparency.types false in
/-- Pallas_call 0 as a segment: entered from every unscoped buffer at `W1`, left at `W2`. Its arrays are split out of
    the unscoped buffers and put back at the contents the pipeline leaves; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment: entered from every unscoped buffer at `W3`, left at `W4`. Its arrays are split out of
    the unscoped buffers and put back at the contents the pipeline leaves; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h := hout1 (V3 m ρ) c
    unfold Pipeline.ΦA at h
    change (dat1 (V3 m ρ) c).Φ (Fin.last cfg1.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_all m ρ)

end Cert.Kernel.Hand

end
-- ==== Proof.KiRegion1Base.lean ====
/-
  The second pallas_call (pairwise distances, pipeline 1, grid [4, 4] with the reduction axis j last): what its
  three control cases share. The body zeroes its accumulator when j = 0 (first conditional), adds one 128-column
  tile's contribution for each of eight feature chunks at every point, and when j = 3 (second conditional) stores
  the x block and the scaled accumulator into the output block; at every other point the output window is idle.
-/
import proofs.«136571_j42279658062013_2_alg».proof.Proof.Gen.KernelIdeal.Launch
import proofs.«136571_j42279658062013_2_alg».proof.Proof.Gen.KernelIdeal.Skeleton
import proofs.«136571_j42279658062013_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions, decided over the grid -/

/-- The first conditional (reset the accumulator): the reduction coordinate j is 0. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional (write the output block): j is 3, the last reduction step. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where j ≠ 3 the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where j = 3 it is live. -/
theorem liveAt1_3 : ∀ t : Fin cfg1.N, cond1_1 (grid1.coords t) → cfg1.idle 3 (grid1.coords t) = false := by decide +kernel

/-! ## The memrefs the body is called with -/

abbrev VO1_3 : View sig .tc .vmem S128x1088 .f32 := (Memref.whole cc1_stg3_0 : Memref sig .tc .vmem S128x1088 .f32).view
abbrev ms1_0 (t : Fin cfg1.N) : Memref sig .tc .vmem S128x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x64x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x16x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x1088 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from one point to the next. -/
abbrev scM1_0 : Memref sig .tc .vmem S128x64 .f32 := Memref.whole cc1_scratch0
abbrev VS1_0 : View sig .tc .vmem S128x64 .f32 := scM1_0.view

/-- The region's plain invariant with the accumulator spelled as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KiRegion1RunA.lean ====
/-
  The whole body of the pairwise kernel at a point with j = 0: the accumulator is reset, then the eight chunk
  contributions are added; the output block is left as found. The stores into the accumulator are found by the run.
-/
import proofs.«136571_j42279658062013_2_alg».proof.Proof.KiRegion1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S128x1024 .f32) (harg2 : arg2.IsWhole) (arg3 : Memref sig .tc .vmem S128x64x16 .f32) (harg3 : arg3.IsWhole) (arg4 : Memref sig .tc .vmem S64x16x128 .f32) (harg4 : arg4.IsWhole) (arg5 : Memref sig .tc .vmem S128x1088 .f32) (harg5 : arg5.IsWhole) (arg6 : Memref sig .tc .vmem S128x64 .f32) (harg6 : arg6.IsWhole) (hc0 : cond1_0 i) (hc1 : ¬cond1_1 i)
    (x0 : Vec F S128x1024 .f32) (x1 : Vec F S128x64x16 .f32) (x2 : Vec F S64x16x128 .f32) :
    { LS0 : List (View.Piece (Elt F) S128x64 .f32) //
      ∀ (xi3 : Vec F S128x1088 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, fun xi3 E K => ?run⟩
  case run =>
    simp only [cc1_kernel_eq_skeleton, k1_part1_eq_skeleton, k1_part2_eq_skeleton, k1_part3_eq_skeleton, k1_part4_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KiRegion1RunB.lean ====
/-
  The whole body of the pairwise kernel at a point with 0 < j < 3: the eight chunk contributions are added to the
  accumulator the point before left; the output block is left as found.
-/
import proofs.«136571_j42279658062013_2_alg».proof.Proof.KiRegion1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S128x1024 .f32) (harg2 : arg2.IsWhole) (arg3 : Memref sig .tc .vmem S128x64x16 .f32) (harg3 : arg3.IsWhole) (arg4 : Memref sig .tc .vmem S64x16x128 .f32) (harg4 : arg4.IsWhole) (arg5 : Memref sig .tc .vmem S128x1088 .f32) (harg5 : arg5.IsWhole) (arg6 : Memref sig .tc .vmem S128x64 .f32) (harg6 : arg6.IsWhole) (hc0 : ¬cond1_0 i) (hc1 : ¬cond1_1 i)
    (x0 : Vec F S128x1024 .f32) (x1 : Vec F S128x64x16 .f32) (x2 : Vec F S64x16x128 .f32) (xs0 : Vec F S128x64 .f32) :
    { LS0 : List (View.Piece (Elt F) S128x64 .f32) //
      ∀ (xi3 : Vec F S128x1088 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, fun xi3 E K => ?run⟩
  case run =>
    simp only [cc1_kernel_eq_skeleton, k1_part1_eq_skeleton, k1_part2_eq_skeleton, k1_part3_eq_skeleton, k1_part4_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KiRegion1RunC.lean ====
/-
  The whole body of the pairwise kernel at a point with j = 3: the eight chunk contributions are added to the
  accumulator the point before left, then the x block and the scaled accumulator are stored into the output block.
-/
import proofs.«136571_j42279658062013_2_alg».proof.Proof.KiRegion1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S128x1024 .f32) (harg2 : arg2.IsWhole) (arg3 : Memref sig .tc .vmem S128x64x16 .f32) (harg3 : arg3.IsWhole) (arg4 : Memref sig .tc .vmem S64x16x128 .f32) (harg4 : arg4.IsWhole) (arg5 : Memref sig .tc .vmem S128x1088 .f32) (harg5 : arg5.IsWhole) (arg6 : Memref sig .tc .vmem S128x64 .f32) (harg6 : arg6.IsWhole) (hc0 : ¬cond1_0 i) (hc1 : cond1_1 i)
    (x0 : Vec F S128x1024 .f32) (x1 : Vec F S128x64x16 .f32) (x2 : Vec F S64x16x128 .f32) (xs0 : Vec F S128x64 .f32) :
    Σ' (L3 : List (View.Piece (Elt F) S128x1088 .f32)), { LS0 : List (View.Piece (Elt F) S128x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton, k1_part1_eq_skeleton, k1_part2_eq_skeleton, k1_part3_eq_skeleton, k1_part4_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KiRegion1.lean ====
/-
  The second pallas_call, pipeline 1: what its output block and its accumulator hold after each grid point, the
  proof data over that, and the body obligation. The accumulator is carried: after a point with j = 0 it holds that
  tile's sums over a zeroed start, after a later point the sums added to what the point before left; the output block
  is written at j = 3 only and is idle (handed back as found, not written back) at the other points.
-/
import proofs.«136571_j42279658062013_2_alg».proof.Proof.KiRegion1RunA
import proofs.«136571_j42279658062013_2_alg».proof.Proof.KiRegion1RunB
import proofs.«136571_j42279658062013_2_alg».proof.Proof.KiRegion1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Where the output window is idle nothing is stored into it: a placeholder no one consults. -/
def outIdle1_3 : Vec F S128x1088 .f32 := VO1_3.read (Elt F) (VO1_3.writes (Elt F) VO1_3.junk [])

/-- The stores of a point with j = 0 cover the accumulator. -/
theorem scover1_A (c : Dev nD) (i : grid1.Coords) (arg2 : Memref sig .tc .vmem S128x1024 .f32) (harg2 : arg2.IsWhole) (arg3 : Memref sig .tc .vmem S128x64x16 .f32) (harg3 : arg3.IsWhole) (arg4 : Memref sig .tc .vmem S64x16x128 .f32) (harg4 : arg4.IsWhole) (arg5 : Memref sig .tc .vmem S128x1088 .f32) (harg5 : arg5.IsWhole) (arg6 : Memref sig .tc .vmem S128x64 .f32) (harg6 : arg6.IsWhole) (hc0 : cond1_0 i) (hc1 : ¬cond1_1 i)
    (x0 : Vec F S128x1024 .f32) (x1 : Vec F S128x64x16 .f32) (x2 : Vec F S64x16x128 .f32) (y : S128x64.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S128x64.size (by sl_kernel_rfl) y
/-- What such a point leaves in the accumulator. -/
def sout1_A (c : Dev nD) (i : grid1.Coords) (arg2 : Memref sig .tc .vmem S128x1024 .f32) (harg2 : arg2.IsWhole) (arg3 : Memref sig .tc .vmem S128x64x16 .f32) (harg3 : arg3.IsWhole) (arg4 : Memref sig .tc .vmem S64x16x128 .f32) (harg4 : arg4.IsWhole) (arg5 : Memref sig .tc .vmem S128x1088 .f32) (harg5 : arg5.IsWhole) (arg6 : Memref sig .tc .vmem S128x64 .f32) (harg6 : arg6.IsWhole) (hc0 : cond1_0 i) (hc1 : ¬cond1_1 i)
    (x0 : Vec F S128x1024 .f32) (x1 : Vec F S128x64x16 .f32) (x2 : Vec F S64x16x128 .f32) : Vec F S128x64 .f32 :=
  VS1_0.read (Elt F) (VS1_0.writes (Elt F) VS1_0.junk (kernelRun1_A c i arg2 harg2 arg3 harg3 arg4 harg4 arg5 harg5 arg6 harg6 hc0 hc1 x0 x1 x2).1)

/-- The stores of a point with 0 < j < 3 cover the accumulator. -/
theorem scover1_B (c : Dev nD) (i : grid1.Coords) (arg2 : Memref sig .tc .vmem S128x1024 .f32) (harg2 : arg2.IsWhole) (arg3 : Memref sig .tc .vmem S128x64x16 .f32) (harg3 : arg3.IsWhole) (arg4 : Memref sig .tc .vmem S64x16x128 .f32) (harg4 : arg4.IsWhole) (arg5 : Memref sig .tc .vmem S128x1088 .f32) (harg5 : arg5.IsWhole) (arg6 : Memref sig .tc .vmem S128x64 .f32) (harg6 : arg6.IsWhole) (hc0 : ¬cond1_0 i) (hc1 : ¬cond1_1 i)
    (x0 : Vec F S128x1024 .f32) (x1 : Vec F S128x64x16 .f32) (x2 : Vec F S64x16x128 .f32) (xs0 : Vec F S128x64 .f32) (y : S128x64.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S128x8.size (by sl_kernel_rfl) y
def sout1_B (c : Dev nD) (i : grid1.Coords) (arg2 : Memref sig .tc .vmem S128x1024 .f32) (harg2 : arg2.IsWhole) (arg3 : Memref sig .tc .vmem S128x64x16 .f32) (harg3 : arg3.IsWhole) (arg4 : Memref sig .tc .vmem S64x16x128 .f32) (harg4 : arg4.IsWhole) (arg5 : Memref sig .tc .vmem S128x1088 .f32) (harg5 : arg5.IsWhole) (arg6 : Memref sig .tc .vmem S128x64 .f32) (harg6 : arg6.IsWhole) (hc0 : ¬cond1_0 i) (hc1 : ¬cond1_1 i)
    (x0 : Vec F S128x1024 .f32) (x1 : Vec F S128x64x16 .f32) (x2 : Vec F S64x16x128 .f32) (xs0 : Vec F S128x64 .f32) : Vec F S128x64 .f32 :=
  VS1_0.read (Elt F) (VS1_0.writes (Elt F) VS1_0.junk (kernelRun1_B c i arg2 harg2 arg3 harg3 arg4 harg4 arg5 harg5 arg6 harg6 hc0 hc1 x0 x1 x2 xs0).1)

/-- The stores of a point with j = 3 cover the accumulator, and its two output stores tile the output block. -/
theorem scover1_C (c : Dev nD) (i : grid1.Coords) (arg2 : Memref sig .tc .vmem S128x1024 .f32) (harg2 : arg2.IsWhole) (arg3 : Memref sig .tc .vmem S128x64x16 .f32) (harg3 : arg3.IsWhole) (arg4 : Memref sig .tc .vmem S64x16x128 .f32) (harg4 : arg4.IsWhole) (arg5 : Memref sig .tc .vmem S128x1088 .f32) (harg5 : arg5.IsWhole) (arg6 : Memref sig .tc .vmem S128x64 .f32) (harg6 : arg6.IsWhole) (hc0 : ¬cond1_0 i) (hc1 : cond1_1 i)
    (x0 : Vec F S128x1024 .f32) (x1 : Vec F S128x64x16 .f32) (x2 : Vec F S64x16x128 .f32) (xs0 : Vec F S128x64 .f32) (y : S128x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S128x8.size (by sl_kernel_rfl) y
theorem cover1_C (c : Dev nD) (i : grid1.Coords) (arg2 : Memref sig .tc .vmem S128x1024 .f32) (harg2 : arg2.IsWhole) (arg3 : Memref sig .tc .vmem S128x64x16 .f32) (harg3 : arg3.IsWhole) (arg4 : Memref sig .tc .vmem S64x16x128 .f32) (harg4 : arg4.IsWhole) (arg5 : Memref sig .tc .vmem S128x1088 .f32) (harg5 : arg5.IsWhole) (arg6 : Memref sig .tc .vmem S128x64 .f32) (harg6 : arg6.IsWhole) (hc0 : ¬cond1_0 i) (hc1 : cond1_1 i)
    (x0 : Vec F S128x1024 .f32) (x1 : Vec F S128x64x16 .f32) (x2 : Vec F S64x16x128 .f32) (xs0 : Vec F S128x64 .f32) (y : S128x1088.Idx) :
    ∃ pc ∈ (kernelRun1_C c i arg2 harg2 arg3 harg3 arg4 harg4 arg5 harg5 arg6 harg6 hc0 hc1 x0 x1 x2 xs0).1, y ∈ pc.1.set :=
  View.cover_of_tiledBy (kernelRun1_C c i arg2 harg2 arg3 harg3 arg4 harg4 arg5 harg5 arg6 harg6 hc0 hc1 x0 x1 x2 xs0).1 S128x64.size (by sl_kernel_rfl) y
def sout1_C (c : Dev nD) (i : grid1.Coords) (arg2 : Memref sig .tc .vmem S128x1024 .f32) (harg2 : arg2.IsWhole) (arg3 : Memref sig .tc .vmem S128x64x16 .f32) (harg3 : arg3.IsWhole) (arg4 : Memref sig .tc .vmem S64x16x128 .f32) (harg4 : arg4.IsWhole) (arg5 : Memref sig .tc .vmem S128x1088 .f32) (harg5 : arg5.IsWhole) (arg6 : Memref sig .tc .vmem S128x64 .f32) (harg6 : arg6.IsWhole) (hc0 : ¬cond1_0 i) (hc1 : cond1_1 i)
    (x0 : Vec F S128x1024 .f32) (x1 : Vec F S128x64x16 .f32) (x2 : Vec F S64x16x128 .f32) (xs0 : Vec F S128x64 .f32) : Vec F S128x64 .f32 :=
  VS1_0.read (Elt F) (VS1_0.writes (Elt F) VS1_0.junk (kernelRun1_C c i arg2 harg2 arg3 harg3 arg4 harg4 arg5 harg5 arg6 harg6 hc0 hc1 x0 x1 x2 xs0).2.1)
def out1_C (c : Dev nD) (i : grid1.Coords) (arg2 : Memref sig .tc .vmem S128x1024 .f32) (harg2 : arg2.IsWhole) (arg3 : Memref sig .tc .vmem S128x64x16 .f32) (harg3 : arg3.IsWhole) (arg4 : Memref sig .tc .vmem S64x16x128 .f32) (harg4 : arg4.IsWhole) (arg5 : Memref sig .tc .vmem S128x1088 .f32) (harg5 : arg5.IsWhole) (arg6 : Memref sig .tc .vmem S128x64 .f32) (harg6 : arg6.IsWhole) (hc0 : ¬cond1_0 i) (hc1 : cond1_1 i)
    (x0 : Vec F S128x1024 .f32) (x1 : Vec F S128x64x16 .f32) (x2 : Vec F S64x16x128 .f32) (xs0 : Vec F S128x64 .f32) : Vec F S128x1088 .f32 :=
  VO1_3.read (Elt F) (VO1_3.writes (Elt F) VO1_3.junk (kernelRun1_C c i arg2 harg2 arg3 harg3 arg4 harg4 arg5 harg5 arg6 harg6 hc0 hc1 x0 x1 x2 xs0).1)

/-! ## What the output block and the accumulator hold after each point -/

/-- After the body at position `n`: the output block's staging buffer and the accumulator. At j = 0 the accumulator is
    that point's sums over zero; at a later j the sums added to what position `n - 1` left; the output block is written
    at j = 3 from the accumulator the step before left, and is a placeholder elsewhere. -/
def outsAt1 (c : Dev nD) : (n : ℕ) → n < cfg1.N → Vec F S128x1088 .f32 × Vec F S128x64 .f32
  | 0, hn => (outIdle1_3, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      (outIdle1_3, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (outIdle1_3, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (outIdle1_3, sout1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (outIdle1_3, sout1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The scoped buffers that are no staging buffer of this pipeline — the first pallas_call's five staging buffers at
    anything, the accumulator as `S` says — and the generator register at some state. -/
def restWith (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S) ∗ (∃ r, prngReg c r))

theorem PhiA1_eq' (c : Dev nD) : (Pipeline.ΦA spec1 c : sProp 𝕄) = restWith c (iprop(∃ d, owns (c : Thread nD τ) scM1_0 fullShare d)) := by
  rw [PhiA1_eq]; rfl

/-- The invariant before position `n`: before the first point the plain one (the accumulator at anything); afterwards
    the accumulator at what the point before left. -/
def PhiS1 (c : Dev nD) : (n : ℕ) → n ≤ cfg1.N → sProp 𝕄
  | 0, _ => Pipeline.ΦA spec1 c
  | n + 1, hn => restWith c (owns (c : Thread nD τ) scM1_0 fullShare ((outsAt1 V c n hn).2))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = restWith c (owns (c : Thread nD τ) scM1_0 fullShare ((outsAt1 V c n hn).2)) := rfl
theorem PhiS1_pos (c : Dev nD) (n : ℕ) (h : n ≤ cfg1.N) (hz : n ≠ 0) :
    PhiS1 V c n h = restWith c (owns (c : Thread nD τ) scM1_0 fullShare ((outsAt1 V c (n - 1) (by omega)).2)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The input buffers hold their blocks; the value of j selects the case; the invariant hands the
    body the accumulator at what the point before left (at anything before the first point, and a point with j = 0
    overwrites it anyway) and takes it back at this point's contents; an idle output block goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq']; unfold restWith
      · iintro ⟨⟨⟨E0, E1, E2, E3, E4, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [E0 E1 E2 E3 E4 HS0 Hg]
        · isplitr [Hg]
          · isplitl [E0]; · iexact E0
            isplitl [E1]; · iexact E1
            isplitl [E2]; · iexact E2
            isplitl [E3]; · iexact E3
            isplitl [E4]; · iexact E4
            unfold owns; iexists _; isplitr
            swap; · iexact HS0
            ipureintro; exact View.read_writes_of_cover _ _ _ _ _ (scover1_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
    · rw [PhiS1_castSucc V c t, PhiS1_pos V c _ _ hz]; unfold restWith
      · iintro ⟨⟨⟨E0, E1, E2, E3, E4, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [E0 E1 E2 E3 E4 HS0 Hg]
        · isplitr [Hg]
          · isplitl [E0]; · iexact E0
            isplitl [E1]; · iexact E1
            isplitl [E2]; · iexact E2
            isplitl [E3]; · iexact E3
            isplitl [E4]; · iexact E4
            unfold owns; iexists _; isplitr
            swap; · iexact HS0
            ipureintro; exact View.read_writes_of_cover _ _ _ _ _ (scover1_A c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      have hz : t.val ≠ 0 := by omega
      rw [PhiS1_castSucc V c t, PhiS1_pos V c _ _ hz]; unfold restWith
      · iintro ⟨⟨⟨E0, E1, E2, E3, E4, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [E0 E1 E2 E3 E4 HS0 Hg]
        · isplitr [Hg]
          · isplitl [E0]; · iexact E0
            isplitl [E1]; · iexact E1
            isplitl [E2]; · iexact E2
            isplitl [E3]; · iexact E3
            isplitl [E4]; · iexact E4
            unfold owns; iexists _; isplitr
            swap; · iexact HS0
            ipureintro; exact View.read_writes_of_cover _ _ _ _ _ (scover1_C c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      have hz : t.val ≠ 0 := by omega
      rw [PhiS1_castSucc V c t, PhiS1_pos V c _ _ hz]; unfold restWith
      · iintro ⟨⟨⟨E0, E1, E2, E3, E4, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [E0 E1 E2 E3 E4 HS0 Hg]
        · isplitr [Hg]
          · isplitl [E0]; · iexact E0
            isplitl [E1]; · iexact E1
            isplitl [E2]; · iexact E2
            isplitl [E3]; · iexact E3
            isplitl [E4]; · iexact E4
            unfold owns; iexists _; isplitr
            swap; · iexact HS0
            ipureintro; exact View.read_writes_of_cover _ _ _ _ _ (scover1_B c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the plain one back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq']; unfold restWith
  iintro ⟨⟨E0, E1, E2, E3, E4, HS0⟩, Hg⟩
  isplitr [Hg]
  · isplitl [E0]; · iexact E0
    isplitl [E1]; · iexact E1
    isplitl [E2]; · iexact E2
    isplitl [E3]; · iexact E3
    isplitl [E4]; · iexact E4
    iexists _; iexact HS0
  iexact Hg

theorem hout1 (c : Dev nD) : (dat1 V c).Φ (Fin.last cfg1.N) ⊢ Pipeline.ΦA spec1 c :=
  Phi_out1 V c _ (by rw [Fin.val_last]; have : cfg1.N = 16 := N_1; omega)

end Cert.KernelIdeal.Hand

end
-- ==== Proof.KiChunk.lean ====
/-
  One feature chunk's contribution to the accumulator, as the body spells it eight times: from a [128, 8, 16] piece A of
  the row block, an [8, 16, 128] piece B of the column block and the accumulator's [128, 8] piece, entry (p, q) becomes
  acc(p, q) + sum over the 128 columns l of exp(0 - sum over e of |A(p, q, e) - B(q, e, l)|). The body's eight spellings
  (some cut in two by where the printed body is divided) are one term.
-/
import proofs.«136571_j42279658062013_2_alg».proof.Proof.Gen.KernelIdeal.Skeleton

set_option maxRecDepth 16384

noncomputable section

namespace Cert.KernelIdeal.Hand

open Idealize.ShloMosaic Idealize.SL.Sem
open Cert.KernelIdeal Cert.KernelIdeal.Gen

variable {F : FTy → Type} [FloatOps F]

/-- The chunk step: the accumulator piece plus this tile's sums. -/
abbrev chunkStep (A : Vec F S128x8x16 .f32) (B : Vec F S8x16x128 .f32) (acc : Vec F S128x8 .f32) : FVec F S128x8 .f32 :=
  k1_pay5 A B acc

theorem pay7_6_eq (A : Vec F S128x8x16 .f32) (B : Vec F S8x16x128 .f32) (acc : Vec F S128x8 .f32) :
    k1_pay7 (k1_pay6 A B) acc = chunkStep A B acc := rfl
theorem pay8_eq (A : Vec F S128x8x16 .f32) (B : Vec F S8x16x128 .f32) (acc : Vec F S128x8 .f32) :
    k1_pay8 A B acc = chunkStep A B acc := rfl
theorem pay11_9_10_eq (A : Vec F S128x8x16 .f32) (B : Vec F S8x16x128 .f32) (acc : Vec F S128x8 .f32) :
    k1_pay11 (k1_pay9 A) (k1_pay10 B) acc = chunkStep A B acc := rfl
theorem pay12_eq (A : Vec F S128x8x16 .f32) (B : Vec F S8x16x128 .f32) (acc : Vec F S128x8 .f32) :
    k1_pay12 A B acc = chunkStep A B acc := rfl
theorem pay13_eq (A : Vec F S128x8x16 .f32) (B : Vec F S8x16x128 .f32) (acc : Vec F S128x8 .f32) :
    k1_pay13 A B acc = chunkStep A B acc := rfl
theorem pay1_14_eq (A : Vec F S128x8x16 .f32) (B : Vec F S8x16x128 .f32) (acc : Vec F S128x8 .f32) :
    k1_pay1 (k1_pay14 A B acc) = chunkStep A B acc := rfl
theorem pay2_eq (A : Vec F S128x8x16 .f32) (B : Vec F S8x16x128 .f32) (acc : Vec F S128x8 .f32) :
    k1_pay2 A B acc = chunkStep A B acc := rfl

end Cert.KernelIdeal.Hand

end
-- ==== Proof.KiAccum.lean ====
/-
  The accumulator of the pairwise kernel, one grid point at a time. A point's eight stores are eight column pieces
  [128, 8] of the accumulator, piece c holding the chunk step of rows' features 8c..8c+7 over the accumulator piece found
  there; together they tile it, so what the point leaves is one function of the row block, the column block and the
  accumulator it found (`accStep`). At j = 0 the accumulator is first filled with zeros and each piece's read of it reads
  those zeros, so the point leaves `accStep` over the zero array. At j = 3 the output block gets the x block in its
  first 1024 columns and the scaled accumulator in the last 64.
-/
import proofs.«136571_j42279658062013_2_alg».proof.Proof.KiRegion1
import proofs.«136571_j42279658062013_2_alg».proof.Proof.KiChunk
import Idealize.ShloMosaic.Lib.Pipeline.Value
import Idealize.ShloMosaic.Lib.Pipeline.CanonAppend

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The eight pieces -/

/-- The eight column pieces a point stores, newest first. -/
def accPieces (x1 : Vec F S128x64x16 .f32) (x2 : Vec F S64x16x128 .f32) (acc : Vec F S128x64 .f32) : List (View.Piece (Elt F) S128x64 .f32) :=
  [⟨(Rect.unit (s := S128x64) ![0, 56] S128x8.size inb_S128x64_S128x8_0_56), chunkStep (View.ld x1 (Rect.unit (s := S128x64x16) ![0, 56, 0] S128x8x16.size inb_S128x64x16_S128x8x16_0_56_0)) (View.ld x2 (Rect.unit (s := S64x16x128) ![56, 0, 0] S8x16x128.size inb_S64x16x128_S8x16x128_56_0_0)) (View.ld acc (Rect.unit (s := S128x64) ![0, 56] S128x8.size inb_S128x64_S128x8_0_56))⟩,
   ⟨(Rect.unit (s := S128x64) ![0, 48] S128x8.size inb_S128x64_S128x8_0_48), chunkStep (View.ld x1 (Rect.unit (s := S128x64x16) ![0, 48, 0] S128x8x16.size inb_S128x64x16_S128x8x16_0_48_0)) (View.ld x2 (Rect.unit (s := S64x16x128) ![48, 0, 0] S8x16x128.size inb_S64x16x128_S8x16x128_48_0_0)) (View.ld acc (Rect.unit (s := S128x64) ![0, 48] S128x8.size inb_S128x64_S128x8_0_48))⟩,
   ⟨(Rect.unit (s := S128x64) ![0, 40] S128x8.size inb_S128x64_S128x8_0_40), chunkStep (View.ld x1 (Rect.unit (s := S128x64x16) ![0, 40, 0] S128x8x16.size inb_S128x64x16_S128x8x16_0_40_0)) (View.ld x2 (Rect.unit (s := S64x16x128) ![40, 0, 0] S8x16x128.size inb_S64x16x128_S8x16x128_40_0_0)) (View.ld acc (Rect.unit (s := S128x64) ![0, 40] S128x8.size inb_S128x64_S128x8_0_40))⟩,
   ⟨(Rect.unit (s := S128x64) ![0, 32] S128x8.size inb_S128x64_S128x8_0_32), chunkStep (View.ld x1 (Rect.unit (s := S128x64x16) ![0, 32, 0] S128x8x16.size inb_S128x64x16_S128x8x16_0_32_0)) (View.ld x2 (Rect.unit (s := S64x16x128) ![32, 0, 0] S8x16x128.size inb_S64x16x128_S8x16x128_32_0_0)) (View.ld acc (Rect.unit (s := S128x64) ![0, 32] S128x8.size inb_S128x64_S128x8_0_32))⟩,
   ⟨(Rect.unit (s := S128x64) ![0, 24] S128x8.size inb_S128x64_S128x8_0_24), chunkStep (View.ld x1 (Rect.unit (s := S128x64x16) ![0, 24, 0] S128x8x16.size inb_S128x64x16_S128x8x16_0_24_0)) (View.ld x2 (Rect.unit (s := S64x16x128) ![24, 0, 0] S8x16x128.size inb_S64x16x128_S8x16x128_24_0_0)) (View.ld acc (Rect.unit (s := S128x64) ![0, 24] S128x8.size inb_S128x64_S128x8_0_24))⟩,
   ⟨(Rect.unit (s := S128x64) ![0, 16] S128x8.size inb_S128x64_S128x8_0_16), chunkStep (View.ld x1 (Rect.unit (s := S128x64x16) ![0, 16, 0] S128x8x16.size inb_S128x64x16_S128x8x16_0_16_0)) (View.ld x2 (Rect.unit (s := S64x16x128) ![16, 0, 0] S8x16x128.size inb_S64x16x128_S8x16x128_16_0_0)) (View.ld acc (Rect.unit (s := S128x64) ![0, 16] S128x8.size inb_S128x64_S128x8_0_16))⟩,
   ⟨(Rect.unit (s := S128x64) ![0, 8] S128x8.size inb_S128x64_S128x8_0_8), chunkStep (View.ld x1 (Rect.unit (s := S128x64x16) ![0, 8, 0] S128x8x16.size inb_S128x64x16_S128x8x16_0_8_0)) (View.ld x2 (Rect.unit (s := S64x16x128) ![8, 0, 0] S8x16x128.size inb_S64x16x128_S8x16x128_8_0_0)) (View.ld acc (Rect.unit (s := S128x64) ![0, 8] S128x8.size inb_S128x64_S128x8_0_8))⟩,
   ⟨(Rect.unit (s := S128x64) ![0, 0] S128x8.size inb_S128x64_S128x8_0_0), chunkStep (View.ld x1 (Rect.unit (s := S128x64x16) ![0, 0, 0] S128x8x16.size inb_S128x64x16_S128x8x16_0_0_0)) (View.ld x2 (Rect.unit (s := S64x16x128) ![0, 0, 0] S8x16x128.size inb_S64x16x128_S8x16x128_0_0_0)) (View.ld acc (Rect.unit (s := S128x64) ![0, 0] S128x8.size inb_S128x64_S128x8_0_0))⟩]

/-- They tile the accumulator. -/
theorem accPieces_cover (x1 : Vec F S128x64x16 .f32) (x2 : Vec F S64x16x128 .f32) (acc : Vec F S128x64 .f32) (y : S128x64.Idx) :
    ∃ pc ∈ accPieces x1 x2 acc, y ∈ pc.1.set :=
  View.cover_of_tiledL (accPieces x1 x2 acc) S128x8.size (by unfold accPieces; sl_kernel_rfl) y

/-- What a point leaves in the accumulator, from the accumulator it found. -/
def accStep (x1 : Vec F S128x64x16 .f32) (x2 : Vec F S64x16x128 .f32) (acc : Vec F S128x64 .f32) : Vec F S128x64 .f32 :=
  View.canon (accPieces x1 x2 acc)

/-! ## Reading the zero fill back through a column piece -/

/-- A column of index at least `o + 8` is outside the piece at columns `o .. o + 7`. -/
theorem hmiss (o : ℕ) (hin : ∀ a, (![0, o] : Fin 2 → ℕ) a + S128x8.size a ≤ S128x64.size a) {o' : ℕ} (ho : o + 8 ≤ o')
    {hin' : ∀ a, (![0, o'] : Fin 2 → ℕ) a + S128x8.size a ≤ S128x64.size a} (j : S128x8.Idx) :
    (Rect.unit (s := S128x64) ![0, o'] S128x8.size hin').toLoadRect.idx j ∉ (Rect.unit (s := S128x64) ![0, o] S128x8.size hin).set := by
  rw [Rect.mem_set_unit]
  intro h
  have h1 := h 1
  have e : (((Rect.unit (s := S128x64) ![0, o'] S128x8.size hin').toLoadRect.idx j) 1 : ℕ) = o' + (j 1).val := by
    show ((Rect.unit (s := S128x64) ![0, o'] S128x8.size hin').emb j 1 : ℕ) = _
    rw [Rect.emb_apply]; show o' + 1 * (j 1 : ℕ) = _; omega
  rw [e] at h1
  have : (![0, o] : Fin 2 → ℕ) 1 = o := rfl
  have : S128x8.size 1 = 8 := rfl
  omega

/-- Under stores that all miss an index, a whole-buffer store made before them shows through. -/
theorem canon_zero_under (L : List (View.Piece (Elt F) S128x64 .f32)) (z : S128x64.Idx → Elt F .f32) (y : S128x64.Idx)
    (hL : ∀ p ∈ L, y ∉ p.1.set) : View.canon (L ++ [⟨(Rect.unit (s := S128x64) ![0, 0] S128x64.size inb_S128x64_S128x64_0_0), z⟩]) y = z y := by
  induction L with
  | nil => exact congrFun (View.canon_cons_unit_zero (by funext a; fin_cases a <;> rfl) inb_S128x64_S128x64_0_0 z []) y
  | cons p L ih =>
    rw [List.cons_append, View.canon_cons_of_not_mem _ _ (hL p (by simp))]
    exact ih (fun q hq => hL q (by simp [hq]))

theorem accload_0 (v : View sig .tc .vmem S128x64 .f32)  (z : S128x64.Idx → Elt F .f32) :
    v.readCov [⟨(Rect.unit (s := S128x64) ![0, 0] S128x64.size inb_S128x64_S128x64_0_0), z⟩] (Rect.unit (s := S128x64) ![0, 0] S128x8.size inb_S128x64_S128x8_0_0).toLoadRect = View.ld z (Rect.unit (s := S128x64) ![0, 0] S128x8.size inb_S128x64_S128x8_0_0) := by
  rw [View.readCov_eq_canon']
  funext j
  show View.canon (([] : List (View.Piece (Elt F) S128x64 .f32)) ++ [⟨(Rect.unit (s := S128x64) ![0, 0] S128x64.size inb_S128x64_S128x64_0_0), z⟩]) _ = _
  refine (canon_zero_under _ z _ ?_).trans rfl
  intro p hp
  exact absurd hp List.not_mem_nil

theorem accload_1 (v : View sig .tc .vmem S128x64 .f32) (w0 : S128x8.Idx → Elt F .f32) (z : S128x64.Idx → Elt F .f32) :
    v.readCov [⟨(Rect.unit (s := S128x64) ![0, 0] S128x8.size inb_S128x64_S128x8_0_0), w0⟩, ⟨(Rect.unit (s := S128x64) ![0, 0] S128x64.size inb_S128x64_S128x64_0_0), z⟩] (Rect.unit (s := S128x64) ![0, 8] S128x8.size inb_S128x64_S128x8_0_8).toLoadRect = View.ld z (Rect.unit (s := S128x64) ![0, 8] S128x8.size inb_S128x64_S128x8_0_8) := by
  rw [View.readCov_eq_canon']
  funext j
  show View.canon (([⟨(Rect.unit (s := S128x64) ![0, 0] S128x8.size inb_S128x64_S128x8_0_0), w0⟩] : List (View.Piece (Elt F) S128x64 .f32)) ++ [⟨(Rect.unit (s := S128x64) ![0, 0] S128x64.size inb_S128x64_S128x64_0_0), z⟩]) _ = _
  refine (canon_zero_under _ z _ ?_).trans rfl
  intro p hp
  simp only [List.mem_cons, List.mem_nil_iff, or_false] at hp
  rcases hp with rfl
  · exact hmiss 0 inb_S128x64_S128x8_0_0 (by omega) j

theorem accload_2 (v : View sig .tc .vmem S128x64 .f32) (w1 : S128x8.Idx → Elt F .f32) (w0 : S128x8.Idx → Elt F .f32) (z : S128x64.Idx → Elt F .f32) :
    v.readCov [⟨(Rect.unit (s := S128x64) ![0, 8] S128x8.size inb_S128x64_S128x8_0_8), w1⟩, ⟨(Rect.unit (s := S128x64) ![0, 0] S128x8.size inb_S128x64_S128x8_0_0), w0⟩, ⟨(Rect.unit (s := S128x64) ![0, 0] S128x64.size inb_S128x64_S128x64_0_0), z⟩] (Rect.unit (s := S128x64) ![0, 16] S128x8.size inb_S128x64_S128x8_0_16).toLoadRect = View.ld z (Rect.unit (s := S128x64) ![0, 16] S128x8.size inb_S128x64_S128x8_0_16) := by
  rw [View.readCov_eq_canon']
  funext j
  show View.canon (([⟨(Rect.unit (s := S128x64) ![0, 8] S128x8.size inb_S128x64_S128x8_0_8), w1⟩, ⟨(Rect.unit (s := S128x64) ![0, 0] S128x8.size inb_S128x64_S128x8_0_0), w0⟩] : List (View.Piece (Elt F) S128x64 .f32)) ++ [⟨(Rect.unit (s := S128x64) ![0, 0] S128x64.size inb_S128x64_S128x64_0_0), z⟩]) _ = _
  refine (canon_zero_under _ z _ ?_).trans rfl
  intro p hp
  simp only [List.mem_cons, List.mem_nil_iff, or_false] at hp
  rcases hp with rfl | rfl
  · exact hmiss 8 inb_S128x64_S128x8_0_8 (by omega) j
  · exact hmiss 0 inb_S128x64_S128x8_0_0 (by omega) j

theorem accload_3 (v : View sig .tc .vmem S128x64 .f32) (w2 : S128x8.Idx → Elt F .f32) (w1 : S128x8.Idx → Elt F .f32) (w0 : S128x8.Idx → Elt F .f32) (z : S128x64.Idx → Elt F .f32) :
    v.readCov [⟨(Rect.unit (s := S128x64) ![0, 16] S128x8.size inb_S128x64_S128x8_0_16), w2⟩, ⟨(Rect.unit (s := S128x64) ![0, 8] S128x8.size inb_S128x64_S128x8_0_8), w1⟩, ⟨(Rect.unit (s := S128x64) ![0, 0] S128x8.size inb_S128x64_S128x8_0_0), w0⟩, ⟨(Rect.unit (s := S128x64) ![0, 0] S128x64.size inb_S128x64_S128x64_0_0), z⟩] (Rect.unit (s := S128x64) ![0, 24] S128x8.size inb_S128x64_S128x8_0_24).toLoadRect = View.ld z (Rect.unit (s := S128x64) ![0, 24] S128x8.size inb_S128x64_S128x8_0_24) := by
  rw [View.readCov_eq_canon']
  funext j
  show View.canon (([⟨(Rect.unit (s := S128x64) ![0, 16] S128x8.size inb_S128x64_S128x8_0_16), w2⟩, ⟨(Rect.unit (s := S128x64) ![0, 8] S128x8.size inb_S128x64_S128x8_0_8), w1⟩, ⟨(Rect.unit (s := S128x64) ![0, 0] S128x8.size inb_S128x64_S128x8_0_0), w0⟩] : List (View.Piece (Elt F) S128x64 .f32)) ++ [⟨(Rect.unit (s := S128x64) ![0, 0] S128x64.size inb_S128x64_S128x64_0_0), z⟩]) _ = _
  refine (canon_zero_under _ z _ ?_).trans rfl
  intro p hp
  simp only [List.mem_cons, List.mem_nil_iff, or_false] at hp
  rcases hp with rfl | rfl | rfl
  · exact hmiss 16 inb_S128x64_S128x8_0_16 (by omega) j
  · exact hmiss 8 inb_S128x64_S128x8_0_8 (by omega) j
  · exact hmiss 0 inb_S128x64_S128x8_0_0 (by omega) j

theorem accload_4 (v : View sig .tc .vmem S128x64 .f32) (w3 : S128x8.Idx → Elt F .f32) (w2 : S128x8.Idx → Elt F .f32) (w1 : S128x8.Idx → Elt F .f32) (w0 : S128x8.Idx → Elt F .f32) (z : S128x64.Idx → Elt F .f32) :
    v.readCov [⟨(Rect.unit (s := S128x64) ![0, 24] S128x8.size inb_S128x64_S128x8_0_24), w3⟩, ⟨(Rect.unit (s := S128x64) ![0, 16] S128x8.size inb_S128x64_S128x8_0_16), w2⟩, ⟨(Rect.unit (s := S128x64) ![0, 8] S128x8.size inb_S128x64_S128x8_0_8), w1⟩, ⟨(Rect.unit (s := S128x64) ![0, 0] S128x8.size inb_S128x64_S128x8_0_0), w0⟩, ⟨(Rect.unit (s := S128x64) ![0, 0] S128x64.size inb_S128x64_S128x64_0_0), z⟩] (Rect.unit (s := S128x64) ![0, 32] S128x8.size inb_S128x64_S128x8_0_32).toLoadRect = View.ld z (Rect.unit (s := S128x64) ![0, 32] S128x8.size inb_S128x64_S128x8_0_32) := by
  rw [View.readCov_eq_canon']
  funext j
  show View.canon (([⟨(Rect.unit (s := S128x64) ![0, 24] S128x8.size inb_S128x64_S128x8_0_24), w3⟩, ⟨(Rect.unit (s := S128x64) ![0, 16] S128x8.size inb_S128x64_S128x8_0_16), w2⟩, ⟨(Rect.unit (s := S128x64) ![0, 8] S128x8.size inb_S128x64_S128x8_0_8), w1⟩, ⟨(Rect.unit (s := S128x64) ![0, 0] S128x8.size inb_S128x64_S128x8_0_0), w0⟩] : List (View.Piece (Elt F) S128x64 .f32)) ++ [⟨(Rect.unit (s := S128x64) ![0, 0] S128x64.size inb_S128x64_S128x64_0_0), z⟩]) _ = _
  refine (canon_zero_under _ z _ ?_).trans rfl
  intro p hp
  simp only [List.mem_cons, List.mem_nil_iff, or_false] at hp
  rcases hp with rfl | rfl | rfl | rfl
  · exact hmiss 24 inb_S128x64_S128x8_0_24 (by omega) j
  · exact hmiss 16 inb_S128x64_S128x8_0_16 (by omega) j
  · exact hmiss 8 inb_S128x64_S128x8_0_8 (by omega) j
  · exact hmiss 0 inb_S128x64_S128x8_0_0 (by omega) j

theorem accload_5 (v : View sig .tc .vmem S128x64 .f32) (w4 : S128x8.Idx → Elt F .f32) (w3 : S128x8.Idx → Elt F .f32) (w2 : S128x8.Idx → Elt F .f32) (w1 : S128x8.Idx → Elt F .f32) (w0 : S128x8.Idx → Elt F .f32) (z : S128x64.Idx → Elt F .f32) :
    v.readCov [⟨(Rect.unit (s := S128x64) ![0, 32] S128x8.size inb_S128x64_S128x8_0_32), w4⟩, ⟨(Rect.unit (s := S128x64) ![0, 24] S128x8.size inb_S128x64_S128x8_0_24), w3⟩, ⟨(Rect.unit (s := S128x64) ![0, 16] S128x8.size inb_S128x64_S128x8_0_16), w2⟩, ⟨(Rect.unit (s := S128x64) ![0, 8] S128x8.size inb_S128x64_S128x8_0_8), w1⟩, ⟨(Rect.unit (s := S128x64) ![0, 0] S128x8.size inb_S128x64_S128x8_0_0), w0⟩, ⟨(Rect.unit (s := S128x64) ![0, 0] S128x64.size inb_S128x64_S128x64_0_0), z⟩] (Rect.unit (s := S128x64) ![0, 40] S128x8.size inb_S128x64_S128x8_0_40).toLoadRect = View.ld z (Rect.unit (s := S128x64) ![0, 40] S128x8.size inb_S128x64_S128x8_0_40) := by
  rw [View.readCov_eq_canon']
  funext j
  show View.canon (([⟨(Rect.unit (s := S128x64) ![0, 32] S128x8.size inb_S128x64_S128x8_0_32), w4⟩, ⟨(Rect.unit (s := S128x64) ![0, 24] S128x8.size inb_S128x64_S128x8_0_24), w3⟩, ⟨(Rect.unit (s := S128x64) ![0, 16] S128x8.size inb_S128x64_S128x8_0_16), w2⟩, ⟨(Rect.unit (s := S128x64) ![0, 8] S128x8.size inb_S128x64_S128x8_0_8), w1⟩, ⟨(Rect.unit (s := S128x64) ![0, 0] S128x8.size inb_S128x64_S128x8_0_0), w0⟩] : List (View.Piece (Elt F) S128x64 .f32)) ++ [⟨(Rect.unit (s := S128x64) ![0, 0] S128x64.size inb_S128x64_S128x64_0_0), z⟩]) _ = _
  refine (canon_zero_under _ z _ ?_).trans rfl
  intro p hp
  simp only [List.mem_cons, List.mem_nil_iff, or_false] at hp
  rcases hp with rfl | rfl | rfl | rfl | rfl
  · exact hmiss 32 inb_S128x64_S128x8_0_32 (by omega) j
  · exact hmiss 24 inb_S128x64_S128x8_0_24 (by omega) j
  · exact hmiss 16 inb_S128x64_S128x8_0_16 (by omega) j
  · exact hmiss 8 inb_S128x64_S128x8_0_8 (by omega) j
  · exact hmiss 0 inb_S128x64_S128x8_0_0 (by omega) j

theorem accload_6 (v : View sig .tc .vmem S128x64 .f32) (w5 : S128x8.Idx → Elt F .f32) (w4 : S128x8.Idx → Elt F .f32) (w3 : S128x8.Idx → Elt F .f32) (w2 : S128x8.Idx → Elt F .f32) (w1 : S128x8.Idx → Elt F .f32) (w0 : S128x8.Idx → Elt F .f32) (z : S128x64.Idx → Elt F .f32) :
    v.readCov [⟨(Rect.unit (s := S128x64) ![0, 40] S128x8.size inb_S128x64_S128x8_0_40), w5⟩, ⟨(Rect.unit (s := S128x64) ![0, 32] S128x8.size inb_S128x64_S128x8_0_32), w4⟩, ⟨(Rect.unit (s := S128x64) ![0, 24] S128x8.size inb_S128x64_S128x8_0_24), w3⟩, ⟨(Rect.unit (s := S128x64) ![0, 16] S128x8.size inb_S128x64_S128x8_0_16), w2⟩, ⟨(Rect.unit (s := S128x64) ![0, 8] S128x8.size inb_S128x64_S128x8_0_8), w1⟩, ⟨(Rect.unit (s := S128x64) ![0, 0] S128x8.size inb_S128x64_S128x8_0_0), w0⟩, ⟨(Rect.unit (s := S128x64) ![0, 0] S128x64.size inb_S128x64_S128x64_0_0), z⟩] (Rect.unit (s := S128x64) ![0, 48] S128x8.size inb_S128x64_S128x8_0_48).toLoadRect = View.ld z (Rect.unit (s := S128x64) ![0, 48] S128x8.size inb_S128x64_S128x8_0_48) := by
  rw [View.readCov_eq_canon']
  funext j
  show View.canon (([⟨(Rect.unit (s := S128x64) ![0, 40] S128x8.size inb_S128x64_S128x8_0_40), w5⟩, ⟨(Rect.unit (s := S128x64) ![0, 32] S128x8.size inb_S128x64_S128x8_0_32), w4⟩, ⟨(Rect.unit (s := S128x64) ![0, 24] S128x8.size inb_S128x64_S128x8_0_24), w3⟩, ⟨(Rect.unit (s := S128x64) ![0, 16] S128x8.size inb_S128x64_S128x8_0_16), w2⟩, ⟨(Rect.unit (s := S128x64) ![0, 8] S128x8.size inb_S128x64_S128x8_0_8), w1⟩, ⟨(Rect.unit (s := S128x64) ![0, 0] S128x8.size inb_S128x64_S128x8_0_0), w0⟩] : List (View.Piece (Elt F) S128x64 .f32)) ++ [⟨(Rect.unit (s := S128x64) ![0, 0] S128x64.size inb_S128x64_S128x64_0_0), z⟩]) _ = _
  refine (canon_zero_under _ z _ ?_).trans rfl
  intro p hp
  simp only [List.mem_cons, List.mem_nil_iff, or_false] at hp
  rcases hp with rfl | rfl | rfl | rfl | rfl | rfl
  · exact hmiss 40 inb_S128x64_S128x8_0_40 (by omega) j
  · exact hmiss 32 inb_S128x64_S128x8_0_32 (by omega) j
  · exact hmiss 24 inb_S128x64_S128x8_0_24 (by omega) j
  · exact hmiss 16 inb_S128x64_S128x8_0_16 (by omega) j
  · exact hmiss 8 inb_S128x64_S128x8_0_8 (by omega) j
  · exact hmiss 0 inb_S128x64_S128x8_0_0 (by omega) j

theorem accload_7 (v : View sig .tc .vmem S128x64 .f32) (w6 : S128x8.Idx → Elt F .f32) (w5 : S128x8.Idx → Elt F .f32) (w4 : S128x8.Idx → Elt F .f32) (w3 : S128x8.Idx → Elt F .f32) (w2 : S128x8.Idx → Elt F .f32) (w1 : S128x8.Idx → Elt F .f32) (w0 : S128x8.Idx → Elt F .f32) (z : S128x64.Idx → Elt F .f32) :
    v.readCov [⟨(Rect.unit (s := S128x64) ![0, 48] S128x8.size inb_S128x64_S128x8_0_48), w6⟩, ⟨(Rect.unit (s := S128x64) ![0, 40] S128x8.size inb_S128x64_S128x8_0_40), w5⟩, ⟨(Rect.unit (s := S128x64) ![0, 32] S128x8.size inb_S128x64_S128x8_0_32), w4⟩, ⟨(Rect.unit (s := S128x64) ![0, 24] S128x8.size inb_S128x64_S128x8_0_24), w3⟩, ⟨(Rect.unit (s := S128x64) ![0, 16] S128x8.size inb_S128x64_S128x8_0_16), w2⟩, ⟨(Rect.unit (s := S128x64) ![0, 8] S128x8.size inb_S128x64_S128x8_0_8), w1⟩, ⟨(Rect.unit (s := S128x64) ![0, 0] S128x8.size inb_S128x64_S128x8_0_0), w0⟩, ⟨(Rect.unit (s := S128x64) ![0, 0] S128x64.size inb_S128x64_S128x64_0_0), z⟩] (Rect.unit (s := S128x64) ![0, 56] S128x8.size inb_S128x64_S128x8_0_56).toLoadRect = View.ld z (Rect.unit (s := S128x64) ![0, 56] S128x8.size inb_S128x64_S128x8_0_56) := by
  rw [View.readCov_eq_canon']
  funext j
  show View.canon (([⟨(Rect.unit (s := S128x64) ![0, 48] S128x8.size inb_S128x64_S128x8_0_48), w6⟩, ⟨(Rect.unit (s := S128x64) ![0, 40] S128x8.size inb_S128x64_S128x8_0_40), w5⟩, ⟨(Rect.unit (s := S128x64) ![0, 32] S128x8.size inb_S128x64_S128x8_0_32), w4⟩, ⟨(Rect.unit (s := S128x64) ![0, 24] S128x8.size inb_S128x64_S128x8_0_24), w3⟩, ⟨(Rect.unit (s := S128x64) ![0, 16] S128x8.size inb_S128x64_S128x8_0_16), w2⟩, ⟨(Rect.unit (s := S128x64) ![0, 8] S128x8.size inb_S128x64_S128x8_0_8), w1⟩, ⟨(Rect.unit (s := S128x64) ![0, 0] S128x8.size inb_S128x64_S128x8_0_0), w0⟩] : List (View.Piece (Elt F) S128x64 .f32)) ++ [⟨(Rect.unit (s := S128x64) ![0, 0] S128x64.size inb_S128x64_S128x64_0_0), z⟩]) _ = _
  refine (canon_zero_under _ z _ ?_).trans rfl
  intro p hp
  simp only [List.mem_cons, List.mem_nil_iff, or_false] at hp
  rcases hp with rfl | rfl | rfl | rfl | rfl | rfl | rfl
  · exact hmiss 48 inb_S128x64_S128x8_0_48 (by omega) j
  · exact hmiss 40 inb_S128x64_S128x8_0_40 (by omega) j
  · exact hmiss 32 inb_S128x64_S128x8_0_32 (by omega) j
  · exact hmiss 24 inb_S128x64_S128x8_0_24 (by omega) j
  · exact hmiss 16 inb_S128x64_S128x8_0_16 (by omega) j
  · exact hmiss 8 inb_S128x64_S128x8_0_8 (by omega) j
  · exact hmiss 0 inb_S128x64_S128x8_0_0 (by omega) j

end Cert.KernelIdeal.Hand

end
-- ==== Proof.KiPieces.lean ====
/-
  What the three cases of the pairwise kernel's body leave, as closed terms: the stores the runs found are the eight
  column pieces of `accStep` (at j = 0 over the zero array, the zero fill showing through where the pieces read it), and at
  j = 3 the output block is the x block beside the scaled accumulator.
-/
import proofs.«136571_j42279658062013_2_alg».proof.Proof.KiAccum

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Stores made before a list of stores do not show where that list covers. -/
theorem canon_append_covered {S : Shape} {e : EltTy} (L' : List (View.Piece (Elt F) S e)) :
    ∀ (L : List (View.Piece (Elt F) S e)) (y : S.Idx), (∃ p ∈ L, y ∈ p.1.set) → View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_covered L' L y ?_
      obtain ⟨q, hq, hyq⟩ := hy
      rcases List.mem_cons.mp hq with rfl | hq'
      · exact absurd hyq hm
      · exact ⟨q, hq', hyq⟩

/-- The zero array the accumulator is reset to. -/
abbrev accZero : Vec F S128x64 .f32 := k1_pay4 (F := F)

/-- A point with 0 < j < 3 leaves the chunk steps over the accumulator it found. -/
theorem sout1_B_eq (c : Dev nD) (i : grid1.Coords) (arg2 : Memref sig .tc .vmem S128x1024 .f32) (harg2 : arg2.IsWhole) (arg3 : Memref sig .tc .vmem S128x64x16 .f32) (harg3 : arg3.IsWhole) (arg4 : Memref sig .tc .vmem S64x16x128 .f32) (harg4 : arg4.IsWhole) (arg5 : Memref sig .tc .vmem S128x1088 .f32) (harg5 : arg5.IsWhole) (arg6 : Memref sig .tc .vmem S128x64 .f32) (harg6 : arg6.IsWhole) (hc0 : ¬cond1_0 i) (hc1 : ¬cond1_1 i)
    (x0 : Vec F S128x1024 .f32) (x1 : Vec F S128x64x16 .f32) (x2 : Vec F S64x16x128 .f32) (xs0 : Vec F S128x64 .f32) :
    sout1_B c i arg2 harg2 arg3 harg3 arg4 harg4 arg5 harg5 arg6 harg6 hc0 hc1 x0 x1 x2 xs0 = accStep x1 x2 xs0 := by
  unfold sout1_B
  rw [View.read_writes_eq_canon _ _ _ (scover1_B c i arg2 harg2 arg3 harg3 arg4 harg4 arg5 harg5 arg6 harg6 hc0 hc1 x0 x1 x2 xs0)]
  unfold accStep accPieces kernelRun1_B; dsimp only; sl_unfold_words
  simp only [View.readAt_eq_ld, Memref.IsWhole.read_unread]
  rfl

/-- A point with j = 3 leaves the same in the accumulator, -/
theorem sout1_C_eq (c : Dev nD) (i : grid1.Coords) (arg2 : Memref sig .tc .vmem S128x1024 .f32) (harg2 : arg2.IsWhole) (arg3 : Memref sig .tc .vmem S128x64x16 .f32) (harg3 : arg3.IsWhole) (arg4 : Memref sig .tc .vmem S64x16x128 .f32) (harg4 : arg4.IsWhole) (arg5 : Memref sig .tc .vmem S128x1088 .f32) (harg5 : arg5.IsWhole) (arg6 : Memref sig .tc .vmem S128x64 .f32) (harg6 : arg6.IsWhole) (hc0 : ¬cond1_0 i) (hc1 : cond1_1 i)
    (x0 : Vec F S128x1024 .f32) (x1 : Vec F S128x64x16 .f32) (x2 : Vec F S64x16x128 .f32) (xs0 : Vec F S128x64 .f32) :
    sout1_C c i arg2 harg2 arg3 harg3 arg4 harg4 arg5 harg5 arg6 harg6 hc0 hc1 x0 x1 x2 xs0 = accStep x1 x2 xs0 := by
  unfold sout1_C
  rw [View.read_writes_eq_canon _ _ _ (scover1_C c i arg2 harg2 arg3 harg3 arg4 harg4 arg5 harg5 arg6 harg6 hc0 hc1 x0 x1 x2 xs0)]
  unfold accStep accPieces kernelRun1_C; dsimp only; sl_unfold_words
  simp only [View.readAt_eq_ld, Memref.IsWhole.read_unread]
  rfl

/-- The output block of a point with j = 3: the scaled accumulator in columns 1024.., the x block in columns 0..1023. -/
def outBlock (x0 : Vec F S128x1024 .f32) (acc : Vec F S128x64 .f32) : Vec F S128x1088 .f32 :=
  View.canon [⟨Rect.unit (s := S128x1088) ![0, 1024] S128x64.size inb_S128x1088_S128x64_0_1024, k1_pay3 acc⟩,
    ⟨Rect.unit (s := S128x1088) ![0, 0] S128x1024.size inb_S128x1088_S128x1024_0_0, View.ld x0 (Rect.unit (s := S128x1024) ![0, 0] S128x1024.size inb_S128x1024_S128x1024_0_0)⟩]

/-- and that in the output block, over the accumulator after this point's chunk steps. -/
theorem out1_C_eq (c : Dev nD) (i : grid1.Coords) (arg2 : Memref sig .tc .vmem S128x1024 .f32) (harg2 : arg2.IsWhole) (arg3 : Memref sig .tc .vmem S128x64x16 .f32) (harg3 : arg3.IsWhole) (arg4 : Memref sig .tc .vmem S64x16x128 .f32) (harg4 : arg4.IsWhole) (arg5 : Memref sig .tc .vmem S128x1088 .f32) (harg5 : arg5.IsWhole) (arg6 : Memref sig .tc .vmem S128x64 .f32) (harg6 : arg6.IsWhole) (hc0 : ¬cond1_0 i) (hc1 : cond1_1 i)
    (x0 : Vec F S128x1024 .f32) (x1 : Vec F S128x64x16 .f32) (x2 : Vec F S64x16x128 .f32) (xs0 : Vec F S128x64 .f32) :
    out1_C c i arg2 harg2 arg3 harg3 arg4 harg4 arg5 harg5 arg6 harg6 hc0 hc1 x0 x1 x2 xs0 = outBlock x0 (accStep x1 x2 xs0) := by
  unfold out1_C
  rw [View.read_writes_eq_canon _ _ _ (cover1_C c i arg2 harg2 arg3 harg3 arg4 harg4 arg5 harg5 arg6 harg6 hc0 hc1 x0 x1 x2 xs0)]
  have hread : arg6.view.readCov (accPieces x1 x2 xs0) (Rect.unit (s := S128x64) ![0, 0] S128x64.size inb_S128x64_S128x64_0_0).toLoadRect = accStep x1 x2 xs0 := by
    rw [View.readCov_eq_canon_ld _ _ _ (accPieces_cover x1 x2 xs0), View.ld_unit_zero (by funext a; fin_cases a <;> rfl)]
    rfl
  unfold outBlock
  rw [← hread]
  unfold accPieces kernelRun1_C; dsimp only; sl_unfold_words
  simp only [View.readAt_eq_ld, Memref.IsWhole.read_unread]
  rfl

/-- A point with j = 0 leaves the chunk steps over the zero array. -/
theorem sout1_A_eq (c : Dev nD) (i : grid1.Coords) (arg2 : Memref sig .tc .vmem S128x1024 .f32) (harg2 : arg2.IsWhole) (arg3 : Memref sig .tc .vmem S128x64x16 .f32) (harg3 : arg3.IsWhole) (arg4 : Memref sig .tc .vmem S64x16x128 .f32) (harg4 : arg4.IsWhole) (arg5 : Memref sig .tc .vmem S128x1088 .f32) (harg5 : arg5.IsWhole) (arg6 : Memref sig .tc .vmem S128x64 .f32) (harg6 : arg6.IsWhole) (hc0 : cond1_0 i) (hc1 : ¬cond1_1 i)
    (x0 : Vec F S128x1024 .f32) (x1 : Vec F S128x64x16 .f32) (x2 : Vec F S64x16x128 .f32) :
    sout1_A c i arg2 harg2 arg3 harg3 arg4 harg4 arg5 harg5 arg6 harg6 hc0 hc1 x0 x1 x2 = accStep x1 x2 accZero := by
  unfold sout1_A
  rw [View.read_writes_eq_canon _ _ _ (scover1_A c i arg2 harg2 arg3 harg3 arg4 harg4 arg5 harg5 arg6 harg6 hc0 hc1 x0 x1 x2)]
  have hlist : (kernelRun1_A c i arg2 harg2 arg3 harg3 arg4 harg4 arg5 harg5 arg6 harg6 hc0 hc1 x0 x1 x2).1 = accPieces x1 x2 accZero ++ [⟨(Rect.unit (s := S128x64) ![0, 0] S128x64.size inb_S128x64_S128x64_0_0), accZero⟩] := by
    unfold accPieces kernelRun1_A; dsimp only; sl_unfold_words
    simp only [View.readAt_eq_ld, Memref.IsWhole.read_unread]
    rw [accload_0, accload_1, accload_2, accload_3, accload_4, accload_5, accload_6, accload_7]
    rfl
  rw [hlist]
  funext y
  exact canon_append_covered _ (accPieces x1 x2 accZero) y (accPieces_cover x1 x2 accZero y)

end Cert.KernelIdeal.Hand

end
-- ==== Proof.LibAbsSub.lean ====
/-
  Laws of the extended reals about a difference and its absolute value, written max y (-y).

  They hold for all extended reals, the infinities included: no finiteness is assumed anywhere. The one delicate
  point is that subtraction is not antisymmetric at the infinities (⊤ - ⊤ = ⊥ in both orders), so
  -(u - v) = v - u fails there, while the absolute values |u - v| and |v - u| still agree (both are ⊤).
-/
import Idealize.ShloMosaic.PureOps.Ideal

namespace Cert.Lib.AbsSub

/-- Subtracting from zero is negating, for every extended real (the infinities included). -/
theorem zero_sub' (s : EReal) : (0 : EReal) - s = -s := by
  rw [sub_eq_add_neg, zero_add]

/-- On the reals inside the extended reals, the absolute value of a difference does not depend on the order:
    -(a - b) = b - a, so the two maxima have the same two arguments. -/
theorem abs_sub_comm_coe (a b : ℝ) :
    max ((a : EReal) - (b : EReal)) (-((a : EReal) - (b : EReal)))
      = max ((b : EReal) - (a : EReal)) (-((b : EReal) - (a : EReal))) := by
  rw [← EReal.coe_sub, ← EReal.coe_sub, ← EReal.coe_neg, ← EReal.coe_neg, neg_sub, neg_sub, max_comm]

/-- The absolute value of a difference of extended reals, |u - v| = max (u - v) (-(u - v)), does not depend on the
    order of u and v. With an infinity on either side both absolute values are ⊤ (at ⊤ - ⊤ and ⊥ - ⊥ the
    difference is ⊥ in both orders, and its absolute value ⊤); on the reals it is |a - b| = |b - a|. -/
theorem abs_sub_comm (u v : EReal) :
    max (u - v) (-(u - v)) = max (v - u) (-(v - u)) := by
  induction u using EReal.rec with
  | bot =>
    induction v using EReal.rec with
    | bot => rfl
    | coe b => simp
    | top => simp
  | coe a =>
    induction v using EReal.rec with
    | bot => simp
    | coe b => exact abs_sub_comm_coe a b
    | top => simp
  | top =>
    induction v using EReal.rec with
    | bot => simp
    | coe b => simp
    | top => rfl

/-- The same law under a finite sum: the L1 distance Σ |u i - v i| does not depend on the order. -/
theorem sum_abs_sub_comm {ι : Type} (s : Finset ι) (u v : ι → EReal) :
    (∑ i ∈ s, max (u i - v i) (-(u i - v i))) = ∑ i ∈ s, max (v i - u i) (-(v i - u i)) :=
  Finset.sum_congr rfl fun i _ => abs_sub_comm (u i) (v i)

end Cert.Lib.AbsSub
-- ==== Proof.KiChunkValue.lean ====
/-
  One feature chunk's step, read at an entry, at the ideal values.

  The body lays the [128, 8, 16] piece A along a new last axis of length 128 and the [8, 16, 128] piece B along a new
  first axis of length 128, subtracts, takes absolute values, sums over the 16 inner coordinates, negates (as zero minus
  the sum), exponentiates, sums over the 128 columns and adds the accumulator. At entry (p, q) that is
  acc(p, q) + Σ_l exp(−Σ_e |A(p, q, e) − B(q, e, l)|), the absolute value of an extended real y being max y (−y).
-/
import proofs.«136571_j42279658062013_2_alg».proof.Proof.KiChunk
import proofs.«136571_j42279658062013_2_alg».proof.Proof.LibAbsSub
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.ValueIdx Idealize.SL.Sem
open Cert.KernelIdeal Cert.KernelIdeal.Gen

/-! ## The layout steps at rank 4, read at coordinates -/

section Layout
variable {α : Type}

/-- A [128, 8, 16] array viewed as [128, 8, 16, 1] reads, at (p, q, e, 0), the array at (p, q, e): the two indices have
    the same row-major position. -/
theorem lastUnit_apply (X : S128x8x16.Idx → α) (h : S128x8x16.ShapeCasts S128x8x16x1)
    (p : Fin 128) (q : Fin 8) (e : Fin 16) (u : Fin 1) :
    shapeCast S128x8x16x1 X h (ix4 p q e u) = X (ix3 p q e) :=
  shapeCast_apply X h _ _ (by
    have hu : u.val = 0 := by omega
    rw [Shape.rowMajor_val_three, Shape.rowMajor_val_four]
    show (p.val * 8 + q.val) * 16 + e.val = ((p.val * 8 + q.val) * 16 + e.val) * 1 + u.val
    omega)

/-- A [128, 8, 16, 1] array repeated along its last axis reads, at (p, q, e, l), the array at (p, q, e, 0). -/
theorem alongLast_apply (X : S128x8x16x1.Idx → α) (h : S128x8x16x1.Broadcasts S128x8x16x128)
    (p : Fin 128) (q : Fin 8) (e : Fin 16) (l : Fin 128) :
    broadcastTo S128x8x16x128 X h (ix4 p q e l) = X (ix4 p q e (0 : Fin 1)) := by
  refine broadcastTo_apply X h (ix4 p q e l) (ix4 p q e (0 : Fin 1)) fun ax => ?_
  match ax with
  | ⟨0, _⟩ => rfl
  | ⟨1, _⟩ => rfl
  | ⟨2, _⟩ => rfl
  | ⟨3, _⟩ => rfl

/-- A [1, 8, 16, 128] array repeated along its first axis reads, at (p, q, e, l), the array at (0, q, e, l). -/
theorem alongFirst_apply (Y : S1x8x16x128.Idx → α) (h : S1x8x16x128.Broadcasts S128x8x16x128)
    (p : Fin 128) (q : Fin 8) (e : Fin 16) (l : Fin 128) :
    broadcastTo S128x8x16x128 Y h (ix4 p q e l) = Y (ix4 (0 : Fin 1) q e l) := by
  refine broadcastTo_apply Y h (ix4 p q e l) (ix4 (0 : Fin 1) q e l) fun ax => ?_
  match ax with
  | ⟨0, _⟩ => rfl
  | ⟨1, _⟩ => rfl
  | ⟨2, _⟩ => rfl
  | ⟨3, _⟩ => rfl

end Layout

/-! ## The two sums -/

/-- The sum over the inner axis (the 16) of a [128, 8, 16, 128] array, at (p, q, l). -/
theorem sumInner_apply (X : FVec Ideal S128x8x16x128 .f32) (h : S128x8x16x128.Reduces [2] S128x8x128)
    (hφ : FKind.Formats .f32) (hacc : (0x00000000#32 : BitVec 32) = FKind.add.neutral .f32 hφ)
    (p : Fin 128) (q : Fin 8) (l : Fin 128) :
    multiReduction .add [2] S128x8x128 X 0x00000000#32 h hφ hacc (ix3 p q l) = ∑ e : Fin 16, X (ix4 p q e l) := by
  refine (Ideal.multiReduction_add_single X _ h hφ hacc (ix3 p q l)).trans ?_
  show (∑ e : Fin 16, X (h.lift (ix3 p q l) e)) = _
  refine Finset.sum_congr rfl fun e _ => congrArg X ?_
  funext ax
  apply Fin.ext
  match ax with
  | ⟨0, _⟩ => rfl
  | ⟨1, _⟩ => rfl
  | ⟨2, _⟩ => rfl
  | ⟨3, _⟩ => rfl

/-- The sum over the columns (the 128) of a [128, 8, 128] array, at (p, q). -/
theorem sumColumns_apply (X : FVec Ideal S128x8x128 .f32) (h : S128x8x128.Reduces [2] S128x8)
    (hφ : FKind.Formats .f32) (hacc : (0x00000000#32 : BitVec 32) = FKind.add.neutral .f32 hφ)
    (p : Fin 128) (q : Fin 8) :
    multiReduction .add [2] S128x8 X 0x00000000#32 h hφ hacc (ix2 p q) = ∑ l : Fin 128, X (ix3 p q l) := by
  refine (Ideal.multiReduction_add_single X _ h hφ hacc (ix2 p q)).trans ?_
  show (∑ l : Fin 128, X (h.lift (ix2 p q) l)) = _
  refine Finset.sum_congr rfl fun l _ => congrArg X ?_
  funext ax
  apply Fin.ext
  match ax with
  | ⟨0, _⟩ => rfl
  | ⟨1, _⟩ => rfl
  | ⟨2, _⟩ => rfl

/-! ## The step -/

/-- The chunk step at entry (p, q). -/
theorem chunkStep_apply (A : Vec Ideal S128x8x16 .f32) (B : Vec Ideal S8x16x128 .f32) (acc : Vec Ideal S128x8 .f32) (p : Fin 128) (q : Fin 8) :
    chunkStep (F := Ideal) A B acc (ix2 p q)
      = (acc : S128x8.Idx → EReal) (ix2 p q) + ∑ l : Fin 128, Ideal.exp (-(∑ e : Fin 16,
          max ((A : S128x8x16.Idx → EReal) (ix3 p q e) - (B : S8x16x128.Idx → EReal) (ix3 q e l))
            (-((A : S128x8x16.Idx → EReal) (ix3 p q e) - (B : S8x16x128.Idx → EReal) (ix3 q e l))))) := by
  unfold chunkStep k1_pay5
  simp only [shapeCast_self]
  show (acc : S128x8.Idx → EReal) (ix2 p q) + multiReduction (F := Ideal) (s := S128x8x128) (φ := .f32) .add [2] S128x8 _ 0x00000000#32 _ _ _ (ix2 p q) = _
  congr 1
  refine (sumColumns_apply _ _ _ _ p q).trans ?_
  refine Finset.sum_congr rfl fun l _ => ?_
  show Ideal.exp (Ideal.ofBits .f32 0x00000000#32 - multiReduction (F := Ideal) (s := S128x8x16x128) (φ := .f32) .add [2] S128x8x128 _ 0x00000000#32 _ _ _ (ix3 p q l)) = _
  rw [Ideal.ofBits_zero_f32, Cert.Lib.AbsSub.zero_sub']
  refine congrArg (fun s => Ideal.exp (-s)) ?_
  refine (sumInner_apply _ _ _ _ p q l).trans ?_
  refine Finset.sum_congr rfl fun e _ => ?_
  show max (broadcastTo S128x8x16x128 _ _ (ix4 p q e l) - broadcastTo S128x8x16x128 _ _ (ix4 p q e l))
      (-(broadcastTo S128x8x16x128 _ _ (ix4 p q e l) - broadcastTo S128x8x16x128 _ _ (ix4 p q e l))) = _
  rw [alongLast_apply, alongFirst_apply, lastUnit_apply, shapeCast_abc_1abc_apply]

end Cert.KernelIdeal.Hand

end
-- ==== Proof.KiAccumValue.lean ====
/-
  What one grid point of the pairwise call leaves in the accumulator, read at an entry, at the ideal values.

  The point's eight stores are the eight column pieces of the [128, 64] accumulator; the piece at columns o … o + 7
  holds the chunk step of features o … o + 7. Each piece is a block of ONE function of the accumulator's index:
  at (p, f) the accumulator found there plus Σ_l exp(−Σ_e |x1(p, f, e) − x2(f, e, l)|). The pieces tile the
  accumulator, so that function is what the point leaves.

  Also here: the zero fill of the accumulator and the final scaling by 2⁻⁹ = 1/512, read at an entry.
-/
import proofs.«136571_j42279658062013_2_alg».proof.Proof.KiAccum
import proofs.«136571_j42279658062013_2_alg».proof.Proof.KiChunkValue

set_option maxRecDepth 16384

noncomputable section

namespace Cert.KernelIdeal.Hand

open Idealize.ShloMosaic Idealize.ShloMosaic.ValueIdx Idealize.SL.Sem
open Cert.KernelIdeal Cert.KernelIdeal.Gen

/-! ## The function the pieces are blocks of -/

/-- Entry y of the accumulator after a point: what was found there plus the point's sum for row y₀ and feature y₁. -/
def accG (x1 : Vec Ideal S128x64x16 .f32) (x2 : Vec Ideal S64x16x128 .f32) (acc : Vec Ideal S128x64 .f32) : S128x64.Idx → EReal :=
  fun y => (acc : S128x64.Idx → EReal) (ix2 ⟨(y 0).val, idx2_lt0 y⟩ ⟨(y 1).val, idx2_lt1 y⟩)
    + ∑ l : Fin 128, Ideal.exp (-(∑ e : Fin 16,
        max ((x1 : S128x64x16.Idx → EReal) (ix3 ⟨(y 0).val, idx2_lt0 y⟩ ⟨(y 1).val, idx2_lt1 y⟩ e) - (x2 : S64x16x128.Idx → EReal) (ix3 ⟨(y 1).val, idx2_lt1 y⟩ e l))
          (-((x1 : S128x64x16.Idx → EReal) (ix3 ⟨(y 0).val, idx2_lt0 y⟩ ⟨(y 1).val, idx2_lt1 y⟩ e) - (x2 : S64x16x128.Idx → EReal) (ix3 ⟨(y 1).val, idx2_lt1 y⟩ e l)))))

/-- Read at row p, feature f. -/
theorem accG_ix2 (x1 : Vec Ideal S128x64x16 .f32) (x2 : Vec Ideal S64x16x128 .f32) (acc : Vec Ideal S128x64 .f32) (p : Fin 128) (f : Fin 64) :
    accG x1 x2 acc (ix2 p f) = (acc : S128x64.Idx → EReal) (ix2 p f) + ∑ l : Fin 128, Ideal.exp (-(∑ e : Fin 16,
        max ((x1 : S128x64x16.Idx → EReal) (ix3 p f e) - (x2 : S64x16x128.Idx → EReal) (ix3 f e l))
          (-((x1 : S128x64x16.Idx → EReal) (ix3 p f e) - (x2 : S64x16x128.Idx → EReal) (ix3 f e l))))) := rfl

/-! ## Where a piece's entries sit -/

/-- Entry (p, q) of the accumulator's piece at columns o … is the accumulator's (p, o + q). -/
theorem accPiece_idx (o : ℕ) (h6 : ∀ a, (![0, o] : Fin 2 → ℕ) a + S128x8.size a ≤ S128x64.size a)
    (p : Fin 128) (q : Fin 8) (hq : o + q.val < 64) :
    (Rect.unit (s := S128x64) ![0, o] S128x8.size h6).idx (ix2 p q) = ix2 p ⟨o + q.val, hq⟩ := by
  funext a
  apply Fin.ext
  match a with
  | ⟨0, _⟩ => show 0 + 1 * p.val = p.val; omega
  | ⟨1, _⟩ => show o + 1 * q.val = o + q.val; omega

/-- Entry (p, q, e) of the row block's piece at features o … is the row block's (p, o + q, e). -/
theorem rowPiece_idx (o : ℕ) (h1 : ∀ a, (![0, o, 0] : Fin 3 → ℕ) a + S128x8x16.size a ≤ S128x64x16.size a)
    (p : Fin 128) (q : Fin 8) (hq : o + q.val < 64) (e : Fin 16) :
    (Rect.unit (s := S128x64x16) ![0, o, 0] S128x8x16.size h1).idx (ix3 p q e) = ix3 p ⟨o + q.val, hq⟩ e := by
  funext a
  apply Fin.ext
  match a with
  | ⟨0, _⟩ => show 0 + 1 * p.val = p.val; omega
  | ⟨1, _⟩ => show o + 1 * q.val = o + q.val; omega
  | ⟨2, _⟩ => show 0 + 1 * e.val = e.val; omega

/-- Entry (q, e, l) of the column block's piece at features o … is the column block's (o + q, e, l). -/
theorem colPiece_idx (o : ℕ) (h2 : ∀ a, (![o, 0, 0] : Fin 3 → ℕ) a + S8x16x128.size a ≤ S64x16x128.size a)
    (q : Fin 8) (hq : o + q.val < 64) (e : Fin 16) (l : Fin 128) :
    (Rect.unit (s := S64x16x128) ![o, 0, 0] S8x16x128.size h2).idx (ix3 q e l) = ix3 ⟨o + q.val, hq⟩ e l := by
  funext a
  apply Fin.ext
  match a with
  | ⟨0, _⟩ => show o + 1 * q.val = o + q.val; omega
  | ⟨1, _⟩ => show 0 + 1 * e.val = e.val; omega
  | ⟨2, _⟩ => show 0 + 1 * l.val = l.val; omega

/-! ## A piece is a block of the function -/

/-- The piece at columns o … o + 7, at its entry j, is the function at the accumulator index under j. -/
theorem accPiece_apply (x1 : Vec Ideal S128x64x16 .f32) (x2 : Vec Ideal S64x16x128 .f32) (acc : Vec Ideal S128x64 .f32) (o : ℕ)
    (h6 : ∀ a, (![0, o] : Fin 2 → ℕ) a + S128x8.size a ≤ S128x64.size a)
    (h1 : ∀ a, (![0, o, 0] : Fin 3 → ℕ) a + S128x8x16.size a ≤ S128x64x16.size a)
    (h2 : ∀ a, (![o, 0, 0] : Fin 3 → ℕ) a + S8x16x128.size a ≤ S64x16x128.size a)
    (j : S128x8.Idx) :
    chunkStep (F := Ideal) (View.ld x1 (Rect.unit (s := S128x64x16) ![0, o, 0] S128x8x16.size h1))
        (View.ld x2 (Rect.unit (s := S64x16x128) ![o, 0, 0] S8x16x128.size h2))
        (View.ld acc (Rect.unit (s := S128x64) ![0, o] S128x8.size h6)) j
      = accG x1 x2 acc ((Rect.unit (s := S128x64) ![0, o] S128x8.size h6).emb j) := by
  obtain ⟨p, q, rfl⟩ : ∃ (p : Fin 128) (q : Fin 8), j = ix2 p q := ⟨j 0, j 1, eq_ix2 j⟩
  have ho : o + 8 ≤ 64 := h6 1
  have hq : o + q.val < 64 := by have := q.isLt; omega
  rw [chunkStep_apply]
  show _ = accG x1 x2 acc ((Rect.unit (s := S128x64) ![0, o] S128x8.size h6).idx (ix2 p q))
  rw [accPiece_idx o h6 p q hq, accG_ix2]
  simp only [View.ld, accPiece_idx o h6 p q hq, rowPiece_idx o h1 p q hq, colPiece_idx o h2 q hq]

/-! ## The accumulator after a point -/

/-- What a point leaves in the accumulator, at row p and feature f. -/
theorem accStep_apply (x1 : Vec Ideal S128x64x16 .f32) (x2 : Vec Ideal S64x16x128 .f32) (acc : Vec Ideal S128x64 .f32) (p : Fin 128) (f : Fin 64) :
    accStep (F := Ideal) x1 x2 acc (ix2 p f) = (acc : S128x64.Idx → EReal) (ix2 p f) + ∑ l : Fin 128, Ideal.exp (-(∑ e : Fin 16,
        max ((x1 : S128x64x16.Idx → EReal) (ix3 p f e) - (x2 : S64x16x128.Idx → EReal) (ix3 f e l))
          (-((x1 : S128x64x16.Idx → EReal) (ix3 p f e) - (x2 : S64x16x128.Idx → EReal) (ix3 f e l))))) := by
  have hpieces : ∀ pc ∈ accPieces x1 x2 acc, ∀ j : pc.1.shape.Idx, pc.2 j = accG x1 x2 acc (pc.1.emb j) := by
    intro pc hpc
    unfold accPieces at hpc
    simp only [List.mem_cons, List.mem_nil_iff, or_false] at hpc
    rcases hpc with rfl | rfl | rfl | rfl | rfl | rfl | rfl | rfl
    · exact accPiece_apply x1 x2 acc 56 _ _ _
    · exact accPiece_apply x1 x2 acc 48 _ _ _
    · exact accPiece_apply x1 x2 acc 40 _ _ _
    · exact accPiece_apply x1 x2 acc 32 _ _ _
    · exact accPiece_apply x1 x2 acc 24 _ _ _
    · exact accPiece_apply x1 x2 acc 16 _ _ _
    · exact accPiece_apply x1 x2 acc 8 _ _ _
    · exact accPiece_apply x1 x2 acc 0 _ _ _
  unfold accStep
  rw [View.canon_apply_of_pieces (accG x1 x2 acc) (accPieces x1 x2 acc) hpieces (ix2 p f) (accPieces_cover x1 x2 acc (ix2 p f))]
  exact accG_ix2 x1 x2 acc p f

/-! ## The zero fill and the scaling -/

/-- The fill the first column point stores is zero at every entry. -/
theorem k1_pay4_apply (y : S128x64.Idx) : k1_pay4 (F := Ideal) y = (0 : EReal) := by
  unfold k1_pay4
  rw [shapeCast_self]
  exact Ideal.ofBits_zero_f32

/-- The word the last column point scales by is 2⁻⁹ = 1/512. -/
theorem ofBits_inv512 : Ideal.ofBits .f32 0x3B000000#32 = ((1 / 512 : ℝ) : EReal) := by
  simp [Ideal.ofBits, Ideal.ieee, -EReal.coe_mul]; norm_num

/-- The scaled accumulator at an entry. -/
theorem k1_pay3_apply (acc : Vec Ideal S128x64 .f32) (y : S128x64.Idx) :
    k1_pay3 (F := Ideal) acc y = (acc : S128x64.Idx → EReal) y * ((1 / 512 : ℝ) : EReal) := by
  unfold k1_pay3
  show (acc : S128x64.Idx → EReal) y * Ideal.ofBits .f32 0x3B000000#32 = _
  rw [ofBits_inv512]

end Cert.KernelIdeal.Hand

end
-- ==== Proof.Spec.lean ====
/-
  The function both programs compute, stated once over the argument arrays, index by index.

  Minibatch discrimination. From x : [512, 1024] and T : [1024, 64, 16]:
    proj a f e   = sum over k < 1024 of x[a, k] * T[k, f, e]               (the projection, one matrix product)
    gap a b f    = sum over e < 16 of |proj a f e - proj b f e|             (the L1 distance of rows a and b in feature f)
    feat a f     = (sum over b < 512 of exp (-(gap a b f))) * (1 / 512)     (the mean over the batch)
  and the result [512, 1088] is x in its first 1024 columns and feat in the last 64.
  The absolute value of an extended real y is max y (-y).
-/
import Idealize.ShloMosaic.PureOps.Ideal
import Idealize.ShloMosaic.Lib.ValueIdx

noncomputable section

namespace Cert.MiniBatch

open Idealize.ShloMosaic Idealize.ShloMosaic.ValueIdx

abbrev SX : Shape := ⟨2, ![512, 1024]⟩
abbrev ST : Shape := ⟨3, ![1024, 64, 16]⟩
abbrev SO : Shape := ⟨2, ![512, 1088]⟩

/-- Entry (a, f, e) of the projection x · T, T read as a [1024, 64·16] matrix. -/
def proj (x : SX.Idx → EReal) (T : ST.Idx → EReal) (a : Fin 512) (f : Fin 64) (e : Fin 16) : EReal :=
  ∑ k : Fin 1024, x (ix2 a k) * T (ix3 k f e)

/-- The L1 distance between rows a and b of the projection, inside feature f. -/
def gap (x : SX.Idx → EReal) (T : ST.Idx → EReal) (a b : Fin 512) (f : Fin 64) : EReal :=
  ∑ e : Fin 16, max (proj x T a f e - proj x T b f e) (-(proj x T a f e - proj x T b f e))

/-- The mean over the batch of exp (-distance). -/
def feat (x : SX.Idx → EReal) (T : ST.Idx → EReal) (a : Fin 512) (f : Fin 64) : EReal :=
  (∑ b : Fin 512, Ideal.exp (-(gap x T a b f))) * ((1 / 512 : ℝ) : EReal)

/-- Row a, column q of the result: x in the first 1024 columns, the features after them. -/
def out (x : SX.Idx → EReal) (T : ST.Idx → EReal) (a : Fin 512) (q : Fin 1088) : EReal :=
  if h : q.val < 1024 then x (ix2 a ⟨q.val, h⟩) else feat x T a ⟨q.val - 1024, by omega⟩

/-- The whole result array. -/
def G (x : SX.Idx → EReal) (T : ST.Idx → EReal) : SO.Idx → EReal :=
  fun i => out x T ⟨(i 0).val, idx2_lt0 i⟩ ⟨(i 1).val, idx2_lt1 i⟩

end Cert.MiniBatch

end
-- ==== Proof.KiBlocks.lean ====
/-
  Where the pairwise call's blocks sit in their arrays. The grid is [4, 4] with the reduction step j last, so point t is
  row tile t / 4 at step t % 4: the x block, the row-operand block and the output block are row tile t / 4; the
  column-operand block is batch tile t % 4 along its last axis.
-/
import proofs.«136571_j42279658062013_2_alg».proof.Proof.KiRegion1
import Idealize.ShloMosaic.Lib.Pipeline.Value
import Idealize.ShloMosaic.Lib.ValueIdx
import proofs.«136571_j42279658062013_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.MiniBatch (proj gap feat out G)

theorem block_indices1 : ∀ t : Fin cfg1.N,
    win1_0.index t (0 : Fin 2) = t.val / 4 ∧ win1_0.index t (1 : Fin 2) = 0
    ∧ win1_1.index t (0 : Fin 3) = t.val / 4 ∧ win1_1.index t (1 : Fin 3) = 0 ∧ win1_1.index t (2 : Fin 3) = 0
    ∧ win1_2.index t (0 : Fin 3) = 0 ∧ win1_2.index t (1 : Fin 3) = 0 ∧ win1_2.index t (2 : Fin 3) = t.val % 4
    ∧ win1_3.index t (0 : Fin 2) = t.val / 4 ∧ win1_3.index t (1 : Fin 2) = 0 :=
  (by decide +kernel : ∀ t : Fin grid1.N, _)

section AtEntry
variable (V : (c : Dev nD) → (b : Ref sig .tc) → Buf (Elt Ideal) ((c : Thread nD τ).loc b))

/-- The x block at point t is rows 128 (t / 4) … of x. -/
theorem xrows_apply (c : Dev nD) (t : Fin cfg1.N) (y : S128x1024.Idx) (i : S512x1024.Idx)
    (h0 : (i 0).val = t.val / 4 * 128 + (y 0).val) (h1 : (i 1).val = (y 1).val) :
    (iblk1 V c 0 t : Vec Ideal S128x1024 .f32) y = (V c main_arg0 : S512x1024.Idx → EReal) i := by
  obtain ⟨e0, e1, -⟩ := block_indices1 t
  unfold iblk1
  rw [View.read_apply]
  show (V c main_arg0 : S512x1024.Idx → EReal) _ = (V c main_arg0 : S512x1024.Idx → EReal) _
  congr 1
  funext a
  apply Fin.ext
  match a with
  | ⟨0, _⟩ => show win1_0.index t (0 : Fin 2) * 128 + 1 * (y 0).val = (i 0).val; rw [e0, h0]; omega
  | ⟨1, _⟩ => show win1_0.index t (1 : Fin 2) * 1024 + 1 * (y 1).val = (i 1).val; rw [e1, h1]; omega

/-- The row-operand block at point t is rows 128 (t / 4) … of the row operand. -/
theorem rowblk_apply (c : Dev nD) (t : Fin cfg1.N) (y : S128x64x16.Idx) (i : S512x64x16.Idx)
    (h0 : (i 0).val = t.val / 4 * 128 + (y 0).val) (h1 : (i 1).val = (y 1).val) (h2 : (i 2).val = (y 2).val) :
    (iblk1 V c 1 t : Vec Ideal S128x64x16 .f32) y = (V c main_v2 : S512x64x16.Idx → EReal) i := by
  obtain ⟨-, -, e0, e1, e2, -⟩ := block_indices1 t
  unfold iblk1
  rw [View.read_apply]
  show (V c main_v2 : S512x64x16.Idx → EReal) _ = (V c main_v2 : S512x64x16.Idx → EReal) _
  congr 1
  funext a
  apply Fin.ext
  match a with
  | ⟨0, _⟩ => show win1_1.index t (0 : Fin 3) * 128 + 1 * (y 0).val = (i 0).val; rw [e0, h0]; omega
  | ⟨1, _⟩ => show win1_1.index t (1 : Fin 3) * 64 + 1 * (y 1).val = (i 1).val; rw [e1, h1]; omega
  | ⟨2, _⟩ => show win1_1.index t (2 : Fin 3) * 16 + 1 * (y 2).val = (i 2).val; rw [e2, h2]; omega

/-- The column-operand block at point t is batch entries 128 (t % 4) … of the column operand. -/
theorem colblk_apply (c : Dev nD) (t : Fin cfg1.N) (y : S64x16x128.Idx) (i : S64x16x512.Idx)
    (h0 : (i 0).val = (y 0).val) (h1 : (i 1).val = (y 1).val) (h2 : (i 2).val = t.val % 4 * 128 + (y 2).val) :
    (iblk1 V c 2 t : Vec Ideal S64x16x128 .f32) y = (V c main_v3 : S64x16x512.Idx → EReal) i := by
  obtain ⟨-, -, -, -, -, e0, e1, e2, -⟩ := block_indices1 t
  unfold iblk1
  rw [View.read_apply]
  show (V c main_v3 : S64x16x512.Idx → EReal) _ = (V c main_v3 : S64x16x512.Idx → EReal) _
  congr 1
  funext a
  apply Fin.ext
  match a with
  | ⟨0, _⟩ => show win1_2.index t (0 : Fin 3) * 64 + 1 * (y 0).val = (i 0).val; rw [e0, h0]; omega
  | ⟨1, _⟩ => show win1_2.index t (1 : Fin 3) * 16 + 1 * (y 1).val = (i 1).val; rw [e1, h1]; omega
  | ⟨2, _⟩ => show win1_2.index t (2 : Fin 3) * 128 + 1 * (y 2).val = (i 2).val; rw [e2, h2]; omega

/-- An entry of the result is in point t's output block iff each coordinate is in the block's range. -/
theorem mem_block1_3 (t : Fin cfg1.N) (i : S512x1088.Idx) :
    i ∈ ((cfg1.win 3).blk t).view.set ↔ ∀ a : Fin 2, win1_3.index t a * S128x1088.size a ≤ (i a).val ∧ (i a).val < win1_3.index t a * S128x1088.size a + S128x1088.size a := by
  show i ∈ ((View.whole main_v4).slice (win1_3.rect t)).set ↔ _
  rw [View.set_slice_whole, Rect.mem_set_unit]
  exact Iff.rfl

/-- Row r of the result is in the block of the point (r / 128, 3), which is written back. -/
theorem covered1_3 (i : S512x1088.Idx) : ∃ t : Fin cfg1.N, (cfg1.win 3).flush t = true ∧ i ∈ ((cfg1.win 3).blk t).view.set := by
  have hi0 : (i 0).val < 512 := (i 0).isLt
  have hi1 : (i 1).val < 1088 := (i 1).isLt
  have hN : cfg1.N = 16 := N_1
  refine ⟨⟨(i 0).val / 128 * 4 + 3, by rw [hN]; omega⟩, (flush1_3 _).mpr (by show ((i 0).val / 128 * 4 + 3) % 4 = 3; omega), ?_⟩
  obtain ⟨-, -, -, -, -, -, -, -, e0, e1⟩ := block_indices1 ⟨(i 0).val / 128 * 4 + 3, by rw [hN]; omega⟩
  rw [mem_block1_3]
  intro a
  match a with
  | ⟨0, _⟩ => show win1_3.index _ (0 : Fin 2) * 128 ≤ (i 0).val ∧ (i 0).val < win1_3.index _ (0 : Fin 2) * 128 + 128; rw [e0]; show ((i 0).val / 128 * 4 + 3) / 4 * 128 ≤ (i 0).val ∧ (i 0).val < ((i 0).val / 128 * 4 + 3) / 4 * 128 + 128; omega
  | ⟨1, _⟩ => show win1_3.index _ (1 : Fin 2) * 1088 ≤ (i 1).val ∧ (i 1).val < win1_3.index _ (1 : Fin 2) * 1088 + 1088; rw [e1]; omega

end AtEntry

end Cert.KernelIdeal.Hand

end
-- ==== Proof.KiFold.lean ====
/-
  The accumulator across the reduction steps. With R the row operand [512, 64, 16] and C the column operand
  [64, 16, 512] as the call finds them, one step adds to entry (p, f) of row tile I the tile sum
     tileSum I j p f = sum over l < 128 of exp (-(sum over e of |R[128 I + p, f, e] - C[f, e, 128 j + l]|)),
  j the step; the step j = 0 starts from zero. So after step j of row tile I the accumulator holds the tile sums of
  steps 0..j, and after the last step all four.
-/
import proofs.«136571_j42279658062013_2_alg».proof.Proof.KiPieces
import proofs.«136571_j42279658062013_2_alg».proof.Proof.KiAccumValue
import proofs.«136571_j42279658062013_2_alg».proof.Proof.KiBlocks

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.MiniBatch (proj gap feat out G)

/-- Row `128 I + p` of a 512-row array (for I < 4; wrapped otherwise, which no use meets). -/
def rowAt (I : ℕ) (p : Fin 128) : Fin 512 := ⟨(I * 128 + p.val) % 512, Nat.mod_lt _ (by norm_num)⟩

theorem rowAt_val (I : ℕ) (hI : I < 4) (p : Fin 128) : (rowAt I p).val = I * 128 + p.val := by
  show (I * 128 + p.val) % 512 = _
  have := p.isLt
  omega

/-- One step's contribution to entry (p, f) of row tile I, from batch tile j. -/
def tileSum (R : S512x64x16.Idx → EReal) (C : S64x16x512.Idx → EReal) (I j : ℕ) (p : Fin 128) (f : Fin 64) : EReal :=
  ∑ l : Fin 128, Ideal.exp (-(∑ e : Fin 16, max (R (ix3 (rowAt I p) f e) - C (ix3 f e (rowAt j l))) (-(R (ix3 (rowAt I p) f e) - C (ix3 f e (rowAt j l))))))

section AtEntry
variable (V : (c : Dev nD) → (b : Ref sig .tc) → Buf (Elt Ideal) ((c : Thread nD τ).loc b))

/-- The chunk steps of point t over an accumulator add tile (t / 4, t % 4)'s sums. -/
theorem accStep_block (c : Dev nD) (t : Fin cfg1.N) (acc : Vec Ideal S128x64 .f32) (p : Fin 128) (f : Fin 64) :
    accStep (F := Ideal) (iblk1 V c 1 t) (iblk1 V c 2 t) acc (ix2 p f)
      = (acc : S128x64.Idx → EReal) (ix2 p f) + tileSum (V c main_v2) (V c main_v3) (t.val / 4) (t.val % 4) p f := by
  have hN : t.val < 16 := lt_of_lt_of_eq t.isLt (show cfg1.N = 16 from N_1)
  rw [accStep_apply]
  unfold tileSum
  refine congrArg (fun s : EReal => (acc : S128x64.Idx → EReal) (ix2 p f) + s) ?_
  refine Finset.sum_congr rfl fun l _ => ?_
  refine congrArg Ideal.exp (congrArg Neg.neg ?_)
  refine Finset.sum_congr rfl fun e _ => ?_
  rw [rowblk_apply V c t (ix3 p f e) (ix3 (rowAt (t.val / 4) p) f e) (by show (rowAt (t.val / 4) p).val = _; rw [rowAt_val _ (by omega)]) rfl rfl,
    colblk_apply V c t (ix3 f e l) (ix3 f e (rowAt (t.val % 4) l)) rfl rfl (by show (rowAt (t.val % 4) l).val = _; rw [rowAt_val _ (by omega)])]

/-- At a point with j = 0 the accumulator ends holding that tile's sums. -/
theorem acc_first (c : Dev nD) (t : Fin cfg1.N) (h0 : t.val % 4 = 0) (p : Fin 128) (f : Fin 64) :
    ((outsAt1 V c t.val t.isLt).2 : S128x64.Idx → EReal) (ix2 p f) = tileSum (V c main_v2) (V c main_v3) (t.val / 4) 0 p f := by
  have h1 : ¬t.val % 4 = 3 := by omega
  rw [outsAt1_A V c t h0 h1]
  dsimp only
  rw [sout1_A_eq, accStep_block, h0]
  show (k1_pay4 (F := Ideal) : S128x64.Idx → EReal) (ix2 p f) + _ = _
  rw [k1_pay4_apply, zero_add]

/-- At a later point it ends holding what the point before left plus this tile's sums. -/
theorem acc_next (c : Dev nD) (t : Fin cfg1.N) (h0 : ¬t.val % 4 = 0) (p : Fin 128) (f : Fin 64) :
    ((outsAt1 V c t.val t.isLt).2 : S128x64.Idx → EReal) (ix2 p f)
      = ((outsAt1 V c (t.val - 1) (Nat.lt_of_le_of_lt (Nat.sub_le _ _) t.isLt)).2 : S128x64.Idx → EReal) (ix2 p f)
        + tileSum (V c main_v2) (V c main_v3) (t.val / 4) (t.val % 4) p f := by
  by_cases h1 : t.val % 4 = 3
  · rw [outsAt1_C V c t h0 h1]
    dsimp only
    rw [sout1_C_eq, accStep_block]
  · rw [outsAt1_B V c t h0 h1]
    dsimp only
    rw [sout1_B_eq, accStep_block]

/-- After step j of row tile I the accumulator holds the sums of tiles 0..j. -/
theorem acc_inv (c : Dev nD) : ∀ (n : ℕ) (hn : n < cfg1.N) (p : Fin 128) (f : Fin 64),
    ((outsAt1 V c n hn).2 : S128x64.Idx → EReal) (ix2 p f)
      = ∑ j ∈ Finset.range (n % 4 + 1), tileSum (V c main_v2) (V c main_v3) (n / 4) j p f
  | 0, hn, p, f => by
    rw [acc_first V c ⟨0, hn⟩ rfl p f]
    simp
  | n + 1, hn, p, f => by
    by_cases h0 : (n + 1) % 4 = 0
    · rw [acc_first V c ⟨n + 1, hn⟩ h0 p f, h0]
      simp
    · rw [acc_next V c ⟨n + 1, hn⟩ h0 p f]
      show ((outsAt1 V c n _).2 : S128x64.Idx → EReal) (ix2 p f) + _ = _
      rw [acc_inv c n (Nat.lt_of_succ_lt hn) p f]
      have e1 : n / 4 = (n + 1) / 4 := by omega
      have e2 : n % 4 + 1 = (n + 1) % 4 := by omega
      rw [e1, e2, Finset.sum_range_succ]

end AtEntry

end Cert.KernelIdeal.Hand

end
-- ==== Proof.KiRegion0.lean ====
/-
  The projection call: at each of its four points the kernel multiplies the 128 rows of x that the point holds by the
  whole 1024 × 1024 matrix and stores the product over the point's 128 × 1024 block of the result.

  Everything is stated at a parameter V, the contents of the core's buffers when the call is entered, and for any
  float interpretation F. The two operands reach the body as the blocks of their arrays (the matrix is brought in once,
  at the first point, and is still there at the later ones, its block index never moving); the body reads both, reads
  the result's buffer too without using what it finds, and overwrites that buffer whole with the product, so what it
  leaves there is a function of the two operand blocks alone.
-/
import proofs.«136571_j42279658062013_2_alg».proof.Proof.Gen.KernelIdeal.Launch
import proofs.«136571_j42279658062013_2_alg».proof.Proof.Gen.KernelIdeal.Skeleton
import proofs.«136571_j42279658062013_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the contents of the core's buffers when the call is entered
variable (V : (c : Dev nD) → (b : Ref sig .tc) → Buf (Elt F) ((c : Thread nD τ).loc b))

/-! ## The windows' blocks -/

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of x: brought in at every point, so the buffer holds the point's block. Stated for any proof data whose
    array is V's and whose body leaves the block where it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The matrix: brought in at the first point only. At a later point nothing was fetched, but the block index is the
    same at every point (the index map is constant) and the body left the buffer as it was, so the buffer still holds
    the block — which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 128 × 1024 buffer as a rectangle (x's rows; the result's block). -/
abbrev rX0 : Rect S128x1024 := Rect.unit (s := S128x1024) ![0, 0] S128x1024.size inb_S128x1024_S128x1024_0_0
/-- The whole 1024 × 1024 buffer as a rectangle (the matrix). -/
abbrev rT0 : Rect S1024x1024 := Rect.unit (s := S1024x1024) ![0, 0] S1024x1024.size inb_S1024x1024_S1024x1024_0_0

/-! ## What the body leaves in the result's buffer -/

/-- The result's buffer after the body, from the two operand blocks: one store, of the product, over the whole of it. -/
def out0_2 (x0 : Vec F S128x1024 .f32) (x1 : Vec F S1024x1024 .f32) : Vec F S128x1024 .f32 :=
  View.canon [⟨rX0, k0_pay1 (View.ld x0 rX0) (View.ld x1 rT0)⟩]

/-- The one store covers the buffer. -/
theorem cover0_2 (p0 : Vec F S128x1024 .f32) (y : S128x1024.Idx) :
    ∃ pc ∈ ([⟨rX0, p0⟩] : List (View.Piece (Elt F) S128x1024 .f32)), y ∈ pc.1.set :=
  View.cover_of_tiled [⟨rX0, p0⟩] S128x1024.size (by rfl) y

/-! ## The body's triple -/

set_option maxHeartbeats 1000000 in
/-- The kernel on whole buffers — the operands' reading x0 and x1, the result's holding anything — runs to the
    continuation with the operands' as they were and the result's at out0_2 x0 x1. The body's read of the result's
    buffer binds a value nothing uses. -/
theorem sound_kernel0 (c : Dev nD) (E : Set ℕ) (i : grid0.Coords)
    (arg1 : Memref sig .tc .vmem S128x1024 .f32) (harg1 : arg1.IsWhole)
    (arg2 : Memref sig .tc .vmem S1024x1024 .f32) (harg2 : arg2.IsWhole)
    (arg3 : Memref sig .tc .vmem S128x1024 .f32) (harg3 : arg3.IsWhole)
    (x0 : Vec F S128x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The call's proof data -/

/-- The arrays as the call finds them; after the body at point t each operand's buffer at its block and the result's at
    out0_2 of the two blocks; the invariant the plain one (the scoped rest and the generator register, untouched);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each operand's buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' buffers hold their blocks, so the kernel's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KiRun.lean ====
/-
  The whole program's run: @main is a reshape of T, the projection pallas_call, a reshape and a transpose of its
  result, and the pairwise pallas_call. The buffer contents at each boundary are folded from the launch memory; each
  pallas_call is entered from the contents before it and left with its arrays at what its pipeline writes back; the
  run ends with every unscoped buffer at the last boundary's contents, from which the arguments (never written) and
  the result array are read.
-/
import proofs.«136571_j42279658062013_2_alg».proof.Proof.KiRegion0
import proofs.«136571_j42279658062013_2_alg».proof.Proof.KiRegion1
import proofs.«136571_j42279658062013_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At pallas_call 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At pallas_call 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-- The result array at the end is what the pairwise pipeline wrote back. -/
theorem W4_main_v4 (c : Dev nD) : W4 m ρ c (Proc.devRef .tc main_v4) = (dat1 (V3 m ρ) c).arrAt 3 cfg1.N :=
  W4_arr m ρ c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The pallas_calls as segments -/

set_option backward.isDefEq.respectTransparency.types false in
/-- Pallas_call 0 as a segment: entered from every unscoped buffer at `W1`, left at `W2`. Its arrays are split out of
    the unscoped buffers and put back at the contents the pipeline leaves; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment: entered from every unscoped buffer at `W3`, left at `W4`. Its arrays are split out of
    the unscoped buffers and put back at the contents the pipeline leaves; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h := hout1 (V3 m ρ) c
    unfold Pipeline.ΦA at h
    change (dat1 (V3 m ρ) c).Φ (Fin.last cfg1.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_all m ρ)

end Cert.KernelIdeal.Hand

end
-- ==== Proof.KiRegion0Value.lean ====
/-
  What the projection call leaves in its result array, at the ideal values, as one function of what it found in its
  two operand arrays: entry (r, q) of the result is the sum over k < 1024 of x[r, k] · w[k, q], a finite sum of
  extended reals with no rounding and no order of summation in it.

  Point t multiplies rows 128 t … 128 t + 127 of x by the whole matrix and writes the product back over the same rows
  of the result. So what point t writes back is rows 128 t … of ONE function of the two arrays, and the four points'
  blocks fill the result: the array ends holding that function.
-/
import proofs.«136571_j42279658062013_2_alg».proof.Proof.KiRegion0
import proofs.«136571_j42279658062013_2_alg».proof.Proof.Spec
import Idealize.ShloMosaic.Lib.Pipeline.Value
import Idealize.ShloMosaic.Lib.ValueIdx
import Idealize.ShloMosaic.Lib.StackMember
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The product, entry by entry -/

/-- The product of a 512 × 1024 array by a 1024 × 1024 array, entry by entry. -/
def rowsTimes (x : S512x1024.Idx → EReal) (w : S1024x1024.Idx → EReal) : S512x1024.Idx → EReal :=
  fun i => ∑ k : Fin 1024, x (ix2 ⟨(i 0).val, idx2_lt0 i⟩ k) * w (ix2 k ⟨(i 1).val, idx2_lt1 i⟩)

/-- Read at an entry. -/
theorem rowsTimes_apply (x : S512x1024.Idx → EReal) (w : S1024x1024.Idx → EReal) (i : S512x1024.Idx) :
    rowsTimes x w i = ∑ k : Fin 1024, x (ix2 ⟨(i 0).val, idx2_lt0 i⟩ k) * w (ix2 k ⟨(i 1).val, idx2_lt1 i⟩) := rfl

/-- Read at row r, column q. -/
theorem rowsTimes_ix2 (x : S512x1024.Idx → EReal) (w : S1024x1024.Idx → EReal) (r : Fin 512) (q : Fin 1024) :
    rowsTimes x w (ix2 r q) = ∑ k : Fin 1024, x (ix2 r k) * w (ix2 k q) := rfl

/-- The body's stored value, read at an entry: the matrix unit accumulates the product of the two loaded blocks into a
    splat of zeros, which contributes nothing; the cast of the matrix to its own shape changes nothing. -/
theorem stored_apply (x0 : Vec Ideal S128x1024 .f32) (x1 : Vec Ideal S1024x1024 .f32) (a : Fin 128) (b : Fin 1024) :
    k0_pay1 x0 x1 (ix2 a b) = ∑ k : Fin 1024, (x0 : S128x1024.Idx → EReal) (ix2 a k) * (x1 : S1024x1024.Idx → EReal) (ix2 k b) := by
  unfold k0_pay1
  rw [shapeCast_self, matmul_zero_eq_dotGeneral]
  exact StackMember.dotGeneral_plain_apply none x0 x1 a b

/-! ## Where the blocks sit in their arrays -/

theorem zeros2 : (![0, 0] : Fin 2 → Nat) = fun _ => 0 := funext fun a => by fin_cases a <;> rfl

/-- The index maps over the grid: x's block and the result's block at point t are row block t, column block 0; the
    matrix's block is always the whole of it. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section AtEntry
variable (V : (c : Dev nD) → (b : Ref sig .tc) → Buf (Elt Ideal) ((c : Thread nD τ).loc b))

/-- x's block at point t is rows 128 t … 128 t + 127 of x. -/
theorem xblock_apply (c : Dev nD) (t : Fin cfg0.N) (y : S128x1024.Idx) (i : S512x1024.Idx)
    (h0 : (i 0).val = t.val * 128 + (y 0).val) (h1 : (i 1).val = (y 1).val) :
    (iblk0 V c 0 t : Vec Ideal S128x1024 .f32) y = (V c main_arg0 : S512x1024.Idx → EReal) i := by
  obtain ⟨e0, e1, -⟩ := block_indices t
  unfold iblk0
  rw [View.read_apply]
  show (V c main_arg0 : S512x1024.Idx → EReal) _ = (V c main_arg0 : S512x1024.Idx → EReal) _
  congr 1
  funext a
  apply Fin.ext
  match a with
  | ⟨0, _⟩ => show win0_0.index t (0 : Fin 2) * 128 + 1 * (y 0).val = (i 0).val; rw [e0, h0]; omega
  | ⟨1, _⟩ => show win0_0.index t (1 : Fin 2) * 1024 + 1 * (y 1).val = (i 1).val; rw [e1, h1]; omega

/-- The matrix's block at every point is the matrix. -/
theorem wblock_apply (c : Dev nD) (t : Fin cfg0.N) (y : S1024x1024.Idx) :
    (iblk0 V c 1 t : Vec Ideal S1024x1024 .f32) y = (V c main_v0 : S1024x1024.Idx → EReal) y := by
  obtain ⟨-, -, e0, e1, -⟩ := block_indices t
  unfold iblk0
  rw [View.read_apply]
  show (V c main_v0 : S1024x1024.Idx → EReal) _ = (V c main_v0 : S1024x1024.Idx → EReal) _
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 1024 + 1 * (y 1).val = (y 1).val; rw [e1]; omega

/-! ## What a point writes back -/

/-- The value point t stores at entry y of its block is the product's entry at row 128 t + y's row, y's column. -/
theorem written_entry (c : Dev nD) (t : Fin cfg0.N) (y : S128x1024.Idx) (i : S512x1024.Idx)
    (h0 : (i 0).val = t.val * 128 + (y 0).val) (h1 : (i 1).val = (y 1).val) :
    k0_pay1 (iblk0 V c 0 t) (iblk0 V c 1 t) y = rowsTimes (V c main_arg0) (V c main_v0) i := by
  obtain ⟨a, b, rfl⟩ : ∃ (a : Fin 128) (b : Fin 1024), y = ix2 a b := ⟨y 0, y 1, eq_ix2 y⟩
  rw [stored_apply, rowsTimes_apply]
  refine Finset.sum_congr rfl fun k _ => ?_
  rw [xblock_apply V c t (ix2 a k) (ix2 ⟨(i 0).val, idx2_lt0 i⟩ k) h0 rfl, wblock_apply V c t (ix2 k b)]
  have hb : b = ⟨(i 1).val, idx2_lt1 i⟩ := Fin.ext h1.symm
  rw [hb]

/-- Point t writes back rows 128 t … 128 t + 127 of the product of the two arrays as the call found them. -/
theorem flushed0_2_eq (c : Dev nD) (t : Fin cfg0.N) :
    (dat0 (F := Ideal) V c).flushed 2 t = ((cfg0.win 2).blk t).view.read (Elt Ideal) (rowsTimes (V c main_arg0) (V c main_v0)) := by
  show (cfg0.win 2).cut (grid0.coords t) ((dat0 V c).after 2 t) = _
  rw [after0_2]
  unfold out0_2
  rw [View.canon_unit_zero zeros2]
  simp only [View.ld_unit_zero (S := S128x1024) zeros2, View.ld_unit_zero (S := S1024x1024) zeros2]
  obtain ⟨-, -, -, -, e0, e1⟩ := block_indices t
  funext j
  show k0_pay1 (iblk0 V c 0 t) (iblk0 V c 1 t) j = rowsTimes (V c main_arg0) (V c main_v0) (((cfg0.win 2).blk t).view.emb j)
  refine written_entry V c t j _ ?_ ?_
  · show win0_2.index t (0 : Fin 2) * 128 + 1 * (j 0).val = _; rw [e0]; omega
  · show win0_2.index t (1 : Fin 2) * 1024 + 1 * (j 1).val = _; rw [e1]; omega

/-! ## The blocks fill the result -/

/-- An entry of the result is in point t's block iff each coordinate is in the block's range on its axis. -/
theorem mem_block0_2 (t : Fin cfg0.N) (i : S512x1024.Idx) :
    i ∈ ((cfg0.win 2).blk t).view.set ↔ ∀ a : Fin 2, win0_2.index t a * S128x1024.size a ≤ (i a).val ∧ (i a).val < win0_2.index t a * S128x1024.size a + S128x1024.size a := by
  show i ∈ ((View.whole main_v1).slice (win0_2.rect t)).set ↔ _
  rw [View.set_slice_whole, Rect.mem_set_unit]
  exact Iff.rfl

/-- Row r of the result is in the block of point r / 128, which is written back. -/
theorem covered0_2 (i : S512x1024.Idx) : ∃ t : Fin cfg0.N, (cfg0.win 2).flush t = true ∧ i ∈ ((cfg0.win 2).blk t).view.set := by
  have hi0 : (i 0).val < 512 := (i 0).isLt
  have hi1 : (i 1).val < 1024 := (i 1).isLt
  have hN : cfg0.N = 4 := N_0
  refine ⟨⟨(i 0).val / 128, by rw [hN]; omega⟩, flush0_2 _, ?_⟩
  obtain ⟨-, -, -, -, e0, e1⟩ := block_indices ⟨(i 0).val / 128, by rw [hN]; omega⟩
  rw [mem_block0_2]
  intro a
  match a with
  | ⟨0, _⟩ => show win0_2.index _ (0 : Fin 2) * 128 ≤ (i 0).val ∧ (i 0).val < win0_2.index _ (0 : Fin 2) * 128 + 128; rw [e0]; show (i 0).val / 128 * 128 ≤ (i 0).val ∧ (i 0).val < (i 0).val / 128 * 128 + 128; omega
  | ⟨1, _⟩ => show win0_2.index _ (1 : Fin 2) * 1024 ≤ (i 1).val ∧ (i 1).val < win0_2.index _ (1 : Fin 2) * 1024 + 1024; rw [e1]; omega

/-! ## The result array after the call -/

/-- The result array after the call is the product of the two operand arrays as the call found them: entry (r, q) is
    the sum over k of x[r, k] · w[k, q] (rowsTimes_apply, rowsTimes_ix2). -/
theorem arr0_out (c : Dev nD) : (dat0 (F := Ideal) V c).arrAt 2 cfg0.N = rowsTimes (V c main_arg0) (V c main_v0) :=
  (dat0 (F := Ideal) V c).arrAt_eq_of_cover 2 (rowsTimes (V c main_arg0) (V c main_v0)) (fun t _ => flushed0_2_eq V c t) covered0_2

end AtEntry

end Cert.KernelIdeal.Hand

end
-- ==== Proof.KiGlue.lean ====
/-
  The host steps between the two calls, read at an entry.

  The projection's result [512, 1024] is viewed as [512, 64, 16]: entry (a, f, e) is column 16 f + e of row a. The
  matrix the projection multiplies by is T [1024, 64, 16] viewed as [1024, 1024]: its entry (k, 16 f + e) is T (k, f, e).
  So the viewed product at (a, f, e) is the sum over k of x (a, k) · T (k, f, e), the projection of the specification.
  The transposed copy [64, 16, 512] reads, at (f, e, b), the [512, 64, 16] array at (b, f, e).
-/
import proofs.«136571_j42279658062013_2_alg».proof.Proof.KiRegion0Value
import proofs.«136571_j42279658062013_2_alg».proof.Proof.Spec

set_option maxRecDepth 16384

noncomputable section

namespace Cert.KernelIdeal.Hand

open Idealize.ShloMosaic Idealize.ShloMosaic.ValueIdx
open Cert.KernelIdeal

/-- T viewed as a [1024, 1024] matrix, at (k, 16 f + e), is T at (k, f, e): the two indices have the same row-major
    position. -/
theorem flatT_apply (T : S1024x64x16.Idx → EReal) (h1 : S1024x64x16.ShapeCasts S1024x1024)
    (k : Fin 1024) (f : Fin 64) (e : Fin 16) (hq : f.val * 16 + e.val < 1024) :
    shapeCast S1024x1024 T h1 (ix2 k ⟨f.val * 16 + e.val, hq⟩) = T (ix3 k f e) :=
  shapeCast_apply T h1 _ _ (by
    rw [Shape.rowMajor_val_three, Shape.rowMajor_val_two]
    show (k.val * 64 + f.val) * 16 + e.val = k.val * 1024 + (f.val * 16 + e.val)
    omega)

/-- A [512, 1024] array viewed as [512, 64, 16], at (a, f, e), is the array at (a, 16 f + e). -/
theorem splitColumns_apply (P : S512x1024.Idx → EReal) (h2 : S512x1024.ShapeCasts S512x64x16)
    (a : Fin 512) (f : Fin 64) (e : Fin 16) (hq : f.val * 16 + e.val < 1024) :
    shapeCast S512x64x16 P h2 (ix3 a f e) = P (ix2 a ⟨f.val * 16 + e.val, hq⟩) :=
  shapeCast_apply P h2 _ _ (by
    rw [Shape.rowMajor_val_two, Shape.rowMajor_val_three]
    show a.val * 1024 + (f.val * 16 + e.val) = (a.val * 64 + f.val) * 16 + e.val
    omega)

/-- The product by the flattened T, viewed [512, 64, 16], is the specification's projection. -/
theorem projection_apply (x : S512x1024.Idx → EReal) (T : S1024x64x16.Idx → EReal)
    (h1 : S1024x64x16.ShapeCasts S1024x1024) (h2 : S512x1024.ShapeCasts S512x64x16)
    (a : Fin 512) (f : Fin 64) (e : Fin 16) :
    shapeCast S512x64x16 (rowsTimes x (shapeCast S1024x1024 T h1)) h2 (ix3 a f e) = Cert.MiniBatch.proj x T a f e := by
  have hq : f.val * 16 + e.val < 1024 := by have := f.isLt; have := e.isLt; omega
  rw [splitColumns_apply _ h2 a f e hq, rowsTimes_ix2]
  unfold Cert.MiniBatch.proj
  refine Finset.sum_congr rfl fun k _ => ?_
  rw [flatT_apply T h1 k f e hq]

/-- The transposed copy at (f, e, b) is the array at (b, f, e). -/
theorem transposed_apply (M : S512x64x16.Idx → EReal) (h3 : S512x64x16.Transposes [1, 2, 0] S64x16x512)
    (f : Fin 64) (e : Fin 16) (b : Fin 512) :
    transpose S64x16x512 [1, 2, 0] M h3 (ix3 f e b) = M (ix3 b f e) :=
  transpose_apply [1, 2, 0] M h3 (ix3 f e b) (ix3 b f e) fun ax => by
    match ax with
    | ⟨0, _⟩ => rfl
    | ⟨1, _⟩ => rfl
    | ⟨2, _⟩ => rfl

end Cert.KernelIdeal.Hand

end
-- ==== Proof.KiEntry.lean ====
/-
  What the pairwise call finds in its operand arrays, at the ideal values, in terms of the program's two arguments x and
  T: the x array itself; the projection x · T laid out [512, 64, 16] (the first call's product of x with T flattened to
  [1024, 1024], reshaped); and the same projection with the batch axis last, [64, 16, 512].
-/
import proofs.«136571_j42279658062013_2_alg».proof.Proof.KiRun
import proofs.«136571_j42279658062013_2_alg».proof.Proof.KiGlue
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.MiniBatch (proj gap feat out G)

variable (m : (ℓ : Loc nD τ sig) → Buf (Elt Ideal) ℓ) (ρ : Dev nD → PrngReg)

/-- The program's first argument on core c, -/
abbrev argX (c : Dev nD) : S512x1024.Idx → EReal := m ((c : Thread nD τ).loc main_arg0)
/-- and its second. -/
abbrev argT (c : Dev nD) : S1024x64x16.Idx → EReal := m ((c : Thread nD τ).loc main_arg1)

theorem V1_arg0 (c : Dev nD) : V1 m ρ c main_arg0 = m ((c : Thread nD τ).loc main_arg0) :=
  (W1_of m ρ c main_arg0 (by decide)).trans rfl

/-- Before the first call the flattened T is in its buffer. -/
theorem V1_v0 (c : Dev nD) : (V1 m ρ c main_v0 : S1024x1024.Idx → EReal) = shapeCast S1024x1024 (argT m c) shapeCasts_S1024x64x16_S1024x1024 := by
  show StableHlo.after hostOps0 (W0 m ρ c) (Proc.devRef .tc main_v0) = _
  after_results
  rfl

/-- After the first call its result array holds the product. -/
theorem V2_v1 (c : Dev nD) : (V2 m ρ c main_v1 : S512x1024.Idx → EReal) = rowsTimes (argX m c) (shapeCast S1024x1024 (argT m c) shapeCasts_S1024x64x16_S1024x1024) := by
  have h := (W2_arr m ρ c 2).trans (arr0_out (V1 m ρ) c)
  rw [V1_arg0, V1_v0] at h
  exact h

theorem V3_arg0 (c : Dev nD) : V3 m ρ c main_arg0 = m ((c : Thread nD τ).loc main_arg0) :=
  calc W3 m ρ c (Proc.devRef .tc main_arg0)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := V1_arg0 m ρ c

/-- Before the second call: the product reshaped to [512, 64, 16], -/
theorem V3_v2 (c : Dev nD) : (V3 m ρ c main_v2 : S512x64x16.Idx → EReal) = shapeCast S512x64x16 (V2 m ρ c main_v1 : S512x1024.Idx → EReal) shapeCasts_S512x1024_S512x64x16 := by
  show StableHlo.after hostOps1 (W2 m ρ c) (Proc.devRef .tc main_v2) = _
  after_results
  rfl

/-- and that transposed to [64, 16, 512]. -/
theorem V3_v3 (c : Dev nD) : (V3 m ρ c main_v3 : S64x16x512.Idx → EReal) = transpose S64x16x512 [1, 2, 0] (shapeCast S512x64x16 (V2 m ρ c main_v1 : S512x1024.Idx → EReal) shapeCasts_S512x1024_S512x64x16) transposes_S512x64x16_S64x16x512_1_2_0 := by
  show StableHlo.after hostOps1 (W2 m ρ c) (Proc.devRef .tc main_v3) = _
  after_results
  rfl

/-- Row a, feature f, component e of the row operand is the projection's entry. -/
theorem rows_apply (c : Dev nD) (a : Fin 512) (f : Fin 64) (e : Fin 16) :
    (V3 m ρ c main_v2 : S512x64x16.Idx → EReal) (ix3 a f e) = proj (argX m c) (argT m c) a f e := by
  rw [V3_v2, V2_v1]; exact projection_apply _ _ _ _ a f e

/-- Feature f, component e, batch entry b of the column operand is the projection's entry of row b. -/
theorem cols_apply (c : Dev nD) (f : Fin 64) (e : Fin 16) (b : Fin 512) :
    (V3 m ρ c main_v3 : S64x16x512.Idx → EReal) (ix3 f e b) = proj (argX m c) (argT m c) b f e := by
  rw [V3_v3, transposed_apply, V2_v1]; exact projection_apply _ _ _ _ b f e

end Cert.KernelIdeal.Hand

end
-- ==== Proof.KiOutBlockValue.lean ====
/-
  The output block of a last column point, read at an entry, at the ideal values: in its first 1024 columns the x
  block, in its last 64 the accumulator scaled by 1/512.

  The block is two stores, the scaled accumulator over columns 1024 … 1087 made last and the x block over columns
  0 … 1023 before it. A column below 1024 misses the later store's rectangle and lies in the earlier one's; a column
  from 1024 on lies in the later one's.
-/
import proofs.«136571_j42279658062013_2_alg».proof.Proof.KiPieces
import proofs.«136571_j42279658062013_2_alg».proof.Proof.KiAccumValue

set_option maxRecDepth 16384

noncomputable section

namespace Cert.KernelIdeal.Hand

open Idealize.ShloMosaic Idealize.ShloMosaic.ValueIdx Idealize.SL.Sem
open Cert.KernelIdeal Cert.KernelIdeal.Gen

/-- Columns 0 … 1023: the x block. -/
theorem outBlock_left (x0 : Vec Ideal S128x1024 .f32) (acc : Vec Ideal S128x64 .f32) (p : Fin 128) (q : Fin 1088) (hq : q.val < 1024) :
    outBlock (F := Ideal) x0 acc (ix2 p q) = (x0 : S128x1024.Idx → EReal) (ix2 p ⟨q.val, hq⟩) := by
  have hz : (![0, 0] : Fin 2 → Nat) = fun _ => 0 := funext fun a => by fin_cases a <;> rfl
  unfold outBlock
  have hmiss : (ix2 p q : S128x1088.Idx) ∉ (Rect.unit (s := S128x1088) ![0, 1024] S128x64.size inb_S128x1088_S128x64_0_1024).set := by
    rw [Rect.mem_set_unit]
    intro h
    have h1 : 1024 ≤ q.val := (h 1).1
    omega
  refine (View.canon_cons_of_not_mem (⟨Rect.unit (s := S128x1088) ![0, 1024] S128x64.size inb_S128x1088_S128x64_0_1024, k1_pay3 acc⟩ : View.Piece (Elt Ideal) S128x1088 .f32) _ hmiss).trans ?_
  have hemb : (ix2 p q : S128x1088.Idx)
      = (Rect.unit (s := S128x1088) ![0, 0] S128x1024.size inb_S128x1088_S128x1024_0_0).emb (ix2 p ⟨q.val, hq⟩) := by
    funext a
    apply Fin.ext
    match a with
    | ⟨0, _⟩ => show p.val = 0 + 1 * p.val; omega
    | ⟨1, _⟩ => show q.val = 0 + 1 * q.val; omega
  rw [hemb, View.canon_cons_emb]
  exact congrFun (View.ld_unit_zero (S := S128x1024) hz inb_S128x1024_S128x1024_0_0 x0) _

/-- Columns 1024 … 1087: the accumulator scaled by 1/512. -/
theorem outBlock_right (x0 : Vec Ideal S128x1024 .f32) (acc : Vec Ideal S128x64 .f32) (p : Fin 128) (q : Fin 1088) (hq : ¬ q.val < 1024) :
    outBlock (F := Ideal) x0 acc (ix2 p q)
      = (acc : S128x64.Idx → EReal) (ix2 p ⟨q.val - 1024, by have := q.isLt; omega⟩) * ((1 / 512 : ℝ) : EReal) := by
  unfold outBlock
  have hemb : (ix2 p q : S128x1088.Idx)
      = (Rect.unit (s := S128x1088) ![0, 1024] S128x64.size inb_S128x1088_S128x64_0_1024).emb (ix2 p ⟨q.val - 1024, by have := q.isLt; omega⟩) := by
    funext a
    apply Fin.ext
    match a with
    | ⟨0, _⟩ => show p.val = 0 + 1 * p.val; omega
    | ⟨1, _⟩ => show q.val = 1024 + 1 * (q.val - 1024); omega
  rw [hemb, View.canon_cons_emb]
  exact k1_pay3_apply acc _

end Cert.KernelIdeal.Hand

end
-- ==== Proof.KiFinal.lean ====
/-
  The pairwise call's result array at the ideal values is the specification's G of the program's arguments. The output
  block of row tile I is written back once, after the last reduction step: its first 1024 columns are rows 128 I … of x,
  and column 1024 + f of row p is the accumulator's entry (p, f) — the sums over all four batch tiles, that is over all
  512 batch entries b, of exp (-(L1 distance of rows 128 I + p and b in feature f)) — times 1 / 512. The four row
  tiles' blocks fill the array.
-/
import proofs.«136571_j42279658062013_2_alg».proof.Proof.KiFold
import proofs.«136571_j42279658062013_2_alg».proof.Proof.KiEntry
import proofs.«136571_j42279658062013_2_alg».proof.Proof.KiOutBlockValue

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.MiniBatch (proj gap feat out G)

/-- A sum over the 512 batch entries is the sum over the four tiles of the sums inside each. -/
theorem sum_tiles (g : Fin 512 → EReal) : ∑ j ∈ Finset.range 4, ∑ l : Fin 128, g (rowAt j l) = ∑ b : Fin 512, g b := by
  rw [← Fin.sum_univ_eq_sum_range (fun j => ∑ l : Fin 128, g (rowAt j l)) 4]
  have h := Equiv.sum_comp (finProdFinEquiv (m := 4) (n := 128)) (fun b : Fin (4 * 128) => g b)
  rw [Fintype.sum_prod_type] at h
  refine Eq.trans (Finset.sum_congr rfl fun j _ => Finset.sum_congr rfl fun l _ => congrArg g ?_) h
  apply Fin.ext
  have hj := j.isLt
  have hl := l.isLt
  show (j.val * 128 + l.val) % 512 = (finProdFinEquiv (j, l)).val
  rw [finProdFinEquiv_apply_val]
  show (j.val * 128 + l.val) % 512 = l.val + 128 * j.val
  omega

/-- G at an index whose coordinates are a and q. -/
theorem G_at (x : Cert.MiniBatch.SX.Idx → EReal) (T : Cert.MiniBatch.ST.Idx → EReal) (i : Cert.MiniBatch.SO.Idx) (a : Fin 512) (q : Fin 1088)
    (h0 : (i 0).val = a.val) (h1 : (i 1).val = q.val) : G x T i = out x T a q := by
  unfold Cert.MiniBatch.G
  have ea : (⟨(i 0).val, idx2_lt0 i⟩ : Fin 512) = a := Fin.ext h0
  have eq : (⟨(i 1).val, idx2_lt1 i⟩ : Fin 1088) = q := Fin.ext h1
  rw [ea, eq]

variable (m : (ℓ : Loc nD τ sig) → Buf (Elt Ideal) ℓ) (ρ : Dev nD → PrngReg)

/-- A tile sum over the call's operands is the sum over that tile's batch entries of exp (-(distance)). -/
theorem tileSum_entry (c : Dev nD) (I j : ℕ) (p : Fin 128) (f : Fin 64) :
    tileSum (V3 m ρ c main_v2) (V3 m ρ c main_v3) I j p f
      = ∑ l : Fin 128, Ideal.exp (-(gap (argX m c) (argT m c) (rowAt I p) (rowAt j l) f)) := by
  unfold tileSum gap
  refine Finset.sum_congr rfl fun l _ => ?_
  refine congrArg Ideal.exp (congrArg Neg.neg ?_)
  refine Finset.sum_congr rfl fun e _ => ?_
  rw [rows_apply, cols_apply]

/-- What a point with j = 3 writes back is its block of G of the arguments. -/
theorem flushed1_3_eq (c : Dev nD) (t : Fin cfg1.N) (hf : (cfg1.win 3).flush t = true) :
    (dat1 (F := Ideal) (V3 m ρ) c).flushed 3 t = ((cfg1.win 3).blk t).view.read (Elt Ideal) (G (argX m c) (argT m c)) := by
  have hN : t.val < 16 := lt_of_lt_of_eq t.isLt (show cfg1.N = 16 from N_1)
  have h3 : t.val % 4 = 3 := (flush1_3 t).mp hf
  have h0 : ¬t.val % 4 = 0 := by omega
  obtain ⟨-, -, -, -, -, -, -, -, e0, e1⟩ := block_indices1 t
  -- the accumulator after this point: all four tile sums
  have hacc : ∀ (p : Fin 128) (f : Fin 64),
      (accStep (F := Ideal) (iblk1 (V3 m ρ) c 1 t) (iblk1 (V3 m ρ) c 2 t) (outsAt1 (V3 m ρ) c (t.val - 1) (Nat.lt_of_le_of_lt (Nat.sub_le _ _) t.isLt)).2 : S128x64.Idx → EReal) (ix2 p f)
        = ∑ b : Fin 512, Ideal.exp (-(gap (argX m c) (argT m c) (rowAt (t.val / 4) p) b f)) := by
    intro p f
    have h := acc_inv (V3 m ρ) c t.val t.isLt p f
    rw [outsAt1_C (V3 m ρ) c t h0 h3] at h
    dsimp only at h
    rw [sout1_C_eq] at h
    rw [h, h3]
    refine Eq.trans (Finset.sum_congr rfl fun j _ => tileSum_entry m ρ c (t.val / 4) j p f) ?_
    exact sum_tiles (fun b => Ideal.exp (-(gap (argX m c) (argT m c) (rowAt (t.val / 4) p) b f)))
  show (cfg1.win 3).cut (grid1.coords t) ((dat1 (V3 m ρ) c).after 3 t) = _
  rw [after1_3, outsAt1_C (V3 m ρ) c t h0 h3]
  dsimp only
  rw [out1_C_eq]
  funext y
  obtain ⟨p, q, rfl⟩ : ∃ (p : Fin 128) (q : Fin 1088), y = ix2 p q := ⟨y 0, y 1, eq_ix2 y⟩
  show outBlock (F := Ideal) _ _ (ix2 p q) = G (argX m c) (argT m c) (((cfg1.win 3).blk t).view.emb (ix2 p q))
  have k0 : ((((cfg1.win 3).blk t).view.emb (ix2 p q)) 0).val = t.val / 4 * 128 + p.val := by
    show win1_3.index t (0 : Fin 2) * 128 + 1 * p.val = _; rw [e0]; omega
  have k1 : ((((cfg1.win 3).blk t).view.emb (ix2 p q)) 1).val = q.val := by
    show win1_3.index t (1 : Fin 2) * 1088 + 1 * q.val = _; rw [e1]; omega
  rw [G_at _ _ _ (rowAt (t.val / 4) p) q (k0.trans (rowAt_val _ (by omega) p).symm) k1]
  unfold Cert.MiniBatch.out
  by_cases hq : q.val < 1024
  · rw [outBlock_left _ _ p q hq, dif_pos hq]
    rw [xrows_apply (V3 m ρ) c t (ix2 p ⟨q.val, hq⟩) (ix2 (rowAt (t.val / 4) p) ⟨q.val, hq⟩) (rowAt_val _ (by omega) p) rfl, V3_arg0]
  · rw [outBlock_right _ _ p q hq, dif_neg hq, hacc]
    rfl

/-- The result array after the pairwise call is G of the program's arguments. -/
theorem arr1_out (c : Dev nD) : (dat1 (F := Ideal) (V3 m ρ) c).arrAt 3 cfg1.N = G (argX m c) (argT m c) :=
  (dat1 (F := Ideal) (V3 m ρ) c).arrAt_eq_of_cover 3 (G (argX m c) (argT m c)) (fun t hf => flushed1_3_eq m ρ c t hf) covered1_3

/-- THE VALUE. Every weakly fair execution of the idealized program ends with its result array at G of its arguments
    and with the arguments as launched. -/
theorem run_value : θ_run defs (onTc (τ := τ) (main (F := Ideal))) ⟨m, fun _ => 0, ρ⟩ (fun r => ∀ c : Dev nD,
      r.2.mem ((c.tc : Thread nD τ).loc main_v4) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v4 (by decide))).trans ((W4_main_v4 m ρ c).trans (arr1_out m ρ c)),
     (h c _ (mem_uc main_arg0 (by decide))).trans (W4_main_arg0 m ρ c),
     (h c _ (mem_uc main_arg1 (by decide))).trans (W4_main_arg1 m ρ c)⟩) (run_all m ρ)

end Cert.KernelIdeal.Hand

end
-- ==== Proof.RefIndex.lean ====
/-
  The reference's projection stage read at an index.

  The reference reshapes T : [1024, 64, 16] to a [1024, 1024] matrix (column f·16 + e), multiplies x : [512, 1024] by
  it, and reshapes the product [512, 1024] to [512, 64, 16]. Entry (a, f, e) of the result is therefore row a of x
  against column f·16 + e of the reshaped T, which is entry (k, f, e) of T itself:
      sum over k < 1024 of x[a, k] · T[k, f, e].
  The two reshapes are the only arithmetic on indices: (a·64 + f)·16 + e = a·1024 + (f·16 + e), with f·16 + e < 1024.
-/
import proofs.«136571_j42279658062013_2_alg».proof.Proof.Gen.ReferenceIdeal.Read
import proofs.«136571_j42279658062013_2_alg».proof.Proof.Spec

noncomputable section

namespace Cert.MiniBatch.Ref

open Cert.ReferenceIdeal Cert.ReferenceIdeal.Gen Cert.ReferenceIdeal.Read Idealize.ShloMosaic Idealize.ShloMosaic.ValueIdx

/-- Row-major position (a·64 + f)·16 + e of the [512, 64, 16] result lies in row a of the [512, 1024] product;
    the left factor of term k of the matrix product there is x[a, k]. -/
theorem lidx_proj (a : Fin 512) (f : Fin 64) (e : Fin 16) (k : Fin 1024) :
    lidx_main_v1 (idx_main_v2 (ix3 a f e)) k = ix2 a k := by
  have ha := a.isLt; have hf := f.isLt; have he := e.isLt
  refine funext fun b => Fin.ext ?_
  match b with
  | ⟨0, _⟩ => show ((a.val * 64 + f.val) * 16 + e.val) / 1024 = a.val; omega
  | ⟨1, _⟩ => rfl

/-- The right factor of term k is the reshaped T at row k, column f·16 + e, which is T[k, f, e]. -/
theorem ridx_proj (a : Fin 512) (f : Fin 64) (e : Fin 16) (k : Fin 1024) :
    idx_main_v0 (ridx_main_v1 (idx_main_v2 (ix3 a f e)) k) = ix3 k f e := by
  have ha := a.isLt; have hf := f.isLt; have he := e.isLt; have hk := k.isLt
  refine funext fun b => Fin.ext ?_
  match b with
  | ⟨0, _⟩ =>
    show (k.val * 1024 + ((a.val * 64 + f.val) * 16 + e.val) % 1024) / 1024 = k.val; omega
  | ⟨1, _⟩ =>
    show (k.val * 1024 + ((a.val * 64 + f.val) * 16 + e.val) % 1024) / 16 % 64 = f.val; omega
  | ⟨2, _⟩ =>
    show (k.val * 1024 + ((a.val * 64 + f.val) * 16 + e.val) % 1024) % 16 = e.val; omega

/-- The reference's projection stage at (a, f, e) is the specification's `proj`. -/
theorem val_v2_apply (x0 : (⟨S512x1024, .f32⟩ : BufTy).Contents (Elt Ideal))
    (x1 : (⟨S1024x64x16, .f32⟩ : BufTy).Contents (Elt Ideal)) (a : Fin 512) (f : Fin 64) (e : Fin 16) :
    val_main_v2 (F := Ideal) x0 x1 (ix3 a f e) = proj x0 x1 a f e := by
  rw [val_main_v2_apply, val_main_v1_apply]
  unfold proj
  refine Finset.sum_congr rfl fun k _ => ?_
  rw [val_main_v0_apply, lidx_proj, ridx_proj]

end Cert.MiniBatch.Ref

end
-- ==== Proof.RefValue.lean ====
/-
  The reference's result, read index by index, is the specification's G.

  After the projection m = x · T (read in the projection module), the reference forms, for every pair of rows (a, b)
  and every feature f, the L1 distance over the inner axis e of m[b, f, e] - m[a, f, e] (the row b entry minus the
  row a entry: the first broadcast varies along b, the second along a), negates it, exponentiates, sums over b,
  divides by 512 and appends the [512, 64] result to x along the columns.
  The specification writes the distance in the other order, |m[a] - m[b]|; the two agree for all extended reals
  by the symmetry of |u - v|. Dividing by the real 512 is multiplying by the real 1/512, at the infinities too.
-/
import proofs.«136571_j42279658062013_2_alg».proof.Proof.RefIndex
import proofs.«136571_j42279658062013_2_alg».proof.Proof.LibAbsSub

noncomputable section

namespace Cert.MiniBatch.Ref

open Cert.ReferenceIdeal Cert.ReferenceIdeal.Gen Cert.ReferenceIdeal.Read Idealize.ShloMosaic Idealize.ShloMosaic.ValueIdx

/-- Term b of the sum over the second batch axis, at result entry (a, f), is entry (a, b, f). -/
theorem idx12 (a : Fin 512) (f : Fin 64) (b : Fin 512) : idx_main_v12 (ix2 a f) b = ix3 a b f :=
  funext fun d => Fin.ext (by match d with | ⟨0, _⟩ => rfl | ⟨1, _⟩ => rfl | ⟨2, _⟩ => rfl)

/-- Term e of the sum over the inner axis, at entry (a, b, f), is entry (a, b, f, e). -/
theorem idx9 (a b : Fin 512) (f : Fin 64) (e : Fin 16) : idx_main_v9 (ix3 a b f) e = ix4 a b f e :=
  funext fun d => Fin.ext (by match d with | ⟨0, _⟩ => rfl | ⟨1, _⟩ => rfl | ⟨2, _⟩ => rfl | ⟨3, _⟩ => rfl)

/-- The projection broadcast along a new leading axis: entry (a, b, f, e) is m[b, f, e]. -/
theorem idx35 (a b : Fin 512) (f : Fin 64) (e : Fin 16) : idx_main_v3 (idx_main_v5 (ix4 a b f e)) = ix3 b f e :=
  funext fun d => Fin.ext (by match d with | ⟨0, _⟩ => rfl | ⟨1, _⟩ => rfl | ⟨2, _⟩ => rfl)

/-- The projection broadcast along a new second axis: entry (a, b, f, e) is m[a, f, e]. -/
theorem idx46 (a b : Fin 512) (f : Fin 64) (e : Fin 16) : idx_main_v4 (idx_main_v6 (ix4 a b f e)) = ix3 a f e :=
  funext fun d => Fin.ext (by match d with | ⟨0, _⟩ => rfl | ⟨1, _⟩ => rfl | ⟨2, _⟩ => rfl)

/-- The absolute difference at (a, b, f, e): |m[b, f, e] - m[a, f, e]|, the absolute value as max y (-y). -/
theorem val_v8_apply (x0 : (⟨S512x1024, .f32⟩ : BufTy).Contents (Elt Ideal))
    (x1 : (⟨S1024x64x16, .f32⟩ : BufTy).Contents (Elt Ideal)) (a b : Fin 512) (f : Fin 64) (e : Fin 16) :
    val_main_v8 (F := Ideal) x0 x1 (ix4 a b f e)
      = max (proj x0 x1 b f e - proj x0 x1 a f e) (-(proj x0 x1 b f e - proj x0 x1 a f e)) := by
  rw [val_main_v8_apply, val_main_v7_apply, val_main_v5_apply, val_main_v3_apply, val_main_v6_apply,
    val_main_v4_apply, idx35, idx46, val_v2_apply, val_v2_apply]
  rfl

/-- exp (-distance) at (a, b, f): the reference's distance is the specification's `gap` with the two rows in the other
    order inside each absolute value, equal to it by the symmetry of |u - v|. -/
theorem val_v11_apply (x0 : (⟨S512x1024, .f32⟩ : BufTy).Contents (Elt Ideal))
    (x1 : (⟨S1024x64x16, .f32⟩ : BufTy).Contents (Elt Ideal)) (a b : Fin 512) (f : Fin 64) :
    val_main_v11 (F := Ideal) x0 x1 (ix3 a b f) = Ideal.exp (-(gap x0 x1 a b f)) := by
  rw [val_main_v11_apply, val_main_v10_apply, val_main_v9_apply, val_main_cst_apply]
  simp only [Ideal.hostUnary_exp_def, Ideal.hostNegf_def, Ideal.negf_def, Ideal.ofBits_def, Ideal.ofBits_zero_f32,
    zero_add]
  unfold gap
  refine congrArg (fun s => Ideal.exp (-s)) (Finset.sum_congr rfl fun e _ => ?_)
  rw [idx9, val_v8_apply]
  exact Cert.Lib.AbsSub.abs_sub_comm _ _

/-- The divisor's word denotes the real 512. -/
theorem ofBits_512 : Ideal.ofBits .f32 0x44000000#32 = ((512 : ℝ) : EReal) := by
  simp [Ideal.ofBits, Ideal.ieee, -EReal.coe_mul]; norm_num

/-- The mean at (a, f): the sum over b of exp (-distance), divided by 512, is the specification's `feat`. -/
theorem val_v14_apply (x0 : (⟨S512x1024, .f32⟩ : BufTy).Contents (Elt Ideal))
    (x1 : (⟨S1024x64x16, .f32⟩ : BufTy).Contents (Elt Ideal)) (a : Fin 512) (f : Fin 64) :
    val_main_v14 (F := Ideal) x0 x1 (ix2 a f) = feat x0 x1 a f := by
  rw [val_main_v14_apply, val_main_v12_apply, val_main_v13_apply, val_main_cst_1_apply, val_main_cst_0_apply]
  simp only [Ideal.hostDivf_def, Ideal.ofBits_def, Ideal.ofBits_zero_f32, zero_add]
  rw [ofBits_512, Ideal.div_coe (by norm_num)]
  unfold feat
  refine congrArg (· * (((1 / 512 : ℝ)) : EReal)) (Finset.sum_congr rfl fun b _ => ?_)
  rw [idx12, val_v11_apply]

/-- The whole result: x in the first 1024 columns, the features in the last 64. The joined axis is the columns;
    a column below 1024 falls in x at the same position, a column from 1024 on falls in the features at the
    column less 1024. -/
theorem val_v15_eq_G (x0 : (⟨S512x1024, .f32⟩ : BufTy).Contents (Elt Ideal))
    (x1 : (⟨S1024x64x16, .f32⟩ : BufTy).Contents (Elt Ideal)) :
    val_main_v15 (F := Ideal) x0 x1 = G x0 x1 := by
  funext i
  obtain ⟨a, q, rfl⟩ : ∃ (a : Fin 512) (q : Fin 1088), i = ix2 a q := ⟨i 0, i 1, eq_ix2 i⟩
  show _ = out x0 x1 a q
  unfold val_main_v15 out
  by_cases h : q.val < 1024
  · rw [dif_pos h]
    exact concatenate_pair_apply_left (1 : Fin 2) x0 (val_main_v14 (F := Ideal) x0 x1)
      concatenates_S512x1024_S512x64_S512x1088_d1 (ix2 a q) rfl (ix2 a ⟨q.val, h⟩)
      (fun d => match d with | ⟨0, _⟩ => rfl | ⟨1, _⟩ => rfl)
  · rw [dif_neg h]
    have hq := q.isLt
    refine (concatenate_pair_apply_right (1 : Fin 2) x0 (val_main_v14 (F := Ideal) x0 x1)
      concatenates_S512x1024_S512x64_S512x1088_d1 (ix2 a q) rfl rfl (ix2 a ⟨q.val - 1024, by omega⟩)
      (fun d hd => match d, hd with | ⟨0, _⟩, _ => rfl | ⟨1, _⟩, hd => absurd rfl hd)
      (by show q.val - 1024 + 1024 = q.val; omega)).trans ?_
    exact val_v14_apply x0 x1 a ⟨q.val - 1024, by omega⟩

end Cert.MiniBatch.Ref

end
-- ==== Proof.RefRun.lean ====
/-
  The reference's run with its result stated as the specification's G of the two argument arrays.

  Every weakly fair execution of the reference terminates with its result array equal to G x T, where x and T are
  the contents of the two argument arrays at the start, and with both arguments unchanged. The run itself is the
  generated read-back of the program's operations; this module only replaces the composed term of the operations
  by G, through the index-by-index reading of the last stage.
-/
import proofs.«136571_j42279658062013_2_alg».proof.Proof.RefValue

noncomputable section

namespace Cert.MiniBatch.Ref

open Idealize.ShloMosaic Idealize.ShloMosaic.TcCoe Idealize.SL.Sem

/-- The reference computes G of its arguments and leaves them unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v15)
          = Cert.MiniBatch.G (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m' ((c.tc : Thread Cert.ReferenceIdeal.nD Cert.ReferenceIdeal.τ).loc Cert.ReferenceIdeal.main_arg1)) :=
  (θ_run Cert.ReferenceIdeal.defs _ _).mono
    (fun _ h c => ⟨(h c).1.trans ((Cert.ReferenceIdeal.Read.val_main_v15_eq _ _).trans (val_v15_eq_G _ _)), (h c).2⟩)
    (Cert.ReferenceIdeal.Value.run (F := Ideal) m' ρ')

end Cert.MiniBatch.Ref

end
-- ==== Proof.lean ====
/-
  The certificate of the minibatch-discrimination kernel against its jnp reference.

  Both programs compute, from x : [512, 1024] and T : [1024, 64, 16], the array [512, 1088] whose first 1024 columns are x
  and whose column 1024 + f of row a is (1 / 512) · sum over the batch b of exp (-(sum over e of |m[a, f, e] - m[b, f, e]|)),
  m = x · T the projection (Spec.lean: `Cert.MiniBatch.G`).
  The kernel does it in two pallas_calls: a row-tiled matrix product, then a [4, 4] grid over (row tile, batch tile) that
  keeps a [128, 64] accumulator across the batch tiles — reset at the first, added to at each, scaled by the exact
  dyadic 2^-9 = 1/512 and written beside the x block at the last. The reference forms the whole [512, 512, 64, 16] array of
  differences (in the other order: |m[b] - m[a]|, the same absolute value), sums, and divides by 512.
  On the extended reals no finiteness is needed: the two sides are the same finite sums of the same terms, grouped
  differently, |u - v| = |v - u| holds at the infinities too, and division by 512 is multiplication by 1/512.

  The frames: each program runs to the end without a fault and never writes an argument (the word-level kernel and its
  idealization by the same argument at their two instances; the reference's from its run). The ideal pass rewrote no
  operation, so the idealization is the kernel's own text read at the extended reals.
-/
import proofs.«136571_j42279658062013_2_alg».proof.Defs
import proofs.«136571_j42279658062013_2_alg».proof.Proof.Gen.Kernel
import proofs.«136571_j42279658062013_2_alg».proof.Proof.Gen.KernelIdeal
import proofs.«136571_j42279658062013_2_alg».proof.Proof.Gen.ReferenceIdeal
import proofs.«136571_j42279658062013_2_alg».proof.Proof.Gen.Pre_finite_inputs
import proofs.«136571_j42279658062013_2_alg».proof.Proof.KRun
import proofs.«136571_j42279658062013_2_alg».proof.Proof.KiFinal
import proofs.«136571_j42279658062013_2_alg».proof.Proof.RefRun
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- So does the reference: its run, the result dropped. -/
theorem frame_ri : Cert.frame_ReferenceIdeal := fun m ρ _ =>
  (θ_run Cert.ReferenceIdeal.defs _ _).mono (fun _ h c => (h c).2) (Cert.MiniBatch.Ref.run m ρ)

/-- The ideal pass rewrote nothing. -/
theorem preserves : Cert.preserves_Kernel_KernelIdeal := trivial

/-- From memories agreeing on x and T both idealized programs end with the result array at G x T. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩) (Cert.MiniBatch.Ref.run m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
